-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x100000 : Shape := ⟨2, ![1024, 100000]⟩
abbrev S100000x16 : Shape := ⟨2, ![100000, 16]⟩
abbrev S_ : Shape := ⟨0, ![]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel
  bcast_S_S100000x16 : S_.BroadcastsInDim S100000x16 (![] : Fin 0 → Fin S100000x16.rank)
  reducesTo_S100000x16_S_d0_1 : S100000x16.ReducesTo [0, 1] S_

variable [Facts]

def fn {F : FTy → Type} [FloatOps F] (main_arg0 : FVec F S1024x100000 .f32) (main_arg1 : FVec F S100000x16 .f32) : IVec S_ 1 :=
  let main_v0 : FVec F S1024x100000 .f32 := Host.absf main_arg0
  let main_cst : FVec F S_ .f32 := constant S_ .f32 0x7F800000#32
  let main_v1 : FVec F S1024x100000 .f32 := broadcastInDim S1024x100000 ![] bcast_S_S1024x100000 main_cst
  let main_v2 : IVec S1024x100000 1 := cmpf .olt main_v0 main_v1
  let main_c : IVec S_ 1 := constantI S_ 1 1#1
  let main_v3 : IVec S_ 1 := (fun x v => Host.reduce IntOp.andi x v reducesTo_S1024x100000_S_d0_1 h_S_) main_v2 main_c
  let main_v4 : FVec F S100000x16 .f32 := Host.absf main_arg1
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  main_v8
-- ==== Kernel.lean ====
abbrev S1024x100000 : Shape := ⟨2, ![1024, 100000]⟩
abbrev S100000x16 : Shape := ⟨2, ![100000, 16]⟩
abbrev S100000x1024 : Shape := ⟨2, ![100000, 1024]⟩
abbrev S16x100000 : Shape := ⟨2, ![16, 100000]⟩
abbrev S1024x16 : Shape := ⟨2, ![1024, 16]⟩
abbrev S3072x1024 : Shape := ⟨2, ![3072, 1024]⟩
abbrev S16x3072 : Shape := ⟨2, ![16, 3072]⟩
abbrev S1696x1024 : Shape := ⟨2, ![1696, 1024]⟩
abbrev S16x1696 : Shape := ⟨2, ![16, 1696]⟩

abbrev nBuf : Space → Nat
  | .hbm => 5
  | .vmem => 5
  | .smem => 0
  | _ => 0

abbrev bufTy : (tb : Table) → Fin (tcTables nBuf tb) → BufTy
  | .hbm, ⟨0, _⟩ => ⟨S1024x100000, .f32⟩
  | .hbm, ⟨1, _⟩ => ⟨S100000x16, .f32⟩
  | .hbm, ⟨2, _⟩ => ⟨S100000x1024, .f32⟩
  | .hbm, ⟨3, _⟩ => ⟨S16x100000, .f32⟩
  | .hbm, ⟨4, _⟩ => ⟨S1024x16, .f32⟩
  | .local _ .vmem, ⟨0, _⟩ => ⟨S3072x1024, .f32⟩
  | .local _ .vmem, ⟨1, _⟩ => ⟨S3072x1024, .f32⟩
  | .local _ .vmem, ⟨2, _⟩ => ⟨S16x3072, .f32⟩
  | .local _ .vmem, ⟨3, _⟩ => ⟨S16x3072, .f32⟩
  | .local _ .vmem, ⟨4, _⟩ => ⟨S1024x16, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c32_i32 : BitVec 32 := 32#32
  let v4 : BitVec 1 := Scalar.cmpi .slt arg0 c32_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c32_i32_3 : BitVec 32 := 32#32
  let v8 : BitVec 1 := Scalar.cmpi .eq arg0 c32_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3072x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S1024x100000_S100000x1024_1_0 : S1024x100000.Transposes [1, 0] S100000x1024
  transposes_S100000x16_S16x100000_1_0 : S100000x16.Transposes [1, 0] S16x100000
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S16x3072_S16x3072_0_0 : ∀ a, (![0, 0] : Fin 2 → Nat) a + S16x3072.size a ≤ S16x3072.size a
  h_S16x3072 : 0 < S16x3072.numel
  shapeCasts_S16x3072_S16x3072 : S16x3072.ShapeCasts S16x3072
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S3072x1024_S1696x1024_0_0 : ∀ a, (![0, 0] : Fin 2 → Nat) a + S1696x1024.size a ≤ S3072x1024.size a
  h_S1696x1024 : 0 < S1696x1024.numel
  shapeCasts_S1696x1024_S1696x1024 : S1696x1024.ShapeCasts S1696x1024
  inb_S16x3072_S16x1696_0_0 : ∀ a, (![0, 0] : Fin 2 → Nat) a + S16x1696.size a ≤ S16x3072.size a
  h_S16x1696 : 0 < S16x1696.numel
  shapeCasts_S16x1696_S16x1696 : S16x1696.ShapeCasts S16x1696
  dot_S3072x1024_S16x3072_S1024x16_0_1_1_0_n_n_wf : DotDims.WF S3072x1024 S16x3072 S1024x16 [0] [1] [1] [0] [] []
  dot_S1696x1024_S16x1696_S1024x16_0_1_1_0_n_n_wf : DotDims.WF S1696x1024 S16x1696 S1024x16 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S3072x1024.size a < S100000x1024.size a
  hwx0_0 : ∀ i : grid0.Coords, EltTy.bits .f32 = 32 ∨ (Rect.unit (s := S100000x1024) (fun a => cc0_transform_0 i a * S3072x1024.size a) (fun a => (Pipeline.Clip.of (cc0_transform_0 i a) (S3072x1024.size a) (S100000x1024.size a)).extent (S3072x1024.size a)) fun a => Pipeline.Clip.inb (Pipeline.Clip.ok_of (hstart0_0 i a))).WholeWords (EltTy.packing .f32)
  hwxs0_0 : ∀ i : grid0.Coords, EltTy.bits .f32 = 32 ∨ (Rect.unit (s := S3072x1024) (fun _ => 0) (fun a => (Pipeline.Clip.of (cc0_transform_0 i a) (S3072x1024.size a) (S100000x1024.size a)).extent (S3072x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S16x3072.size a < S16x100000.size a
  hwx0_1 : ∀ i : grid0.Coords, EltTy.bits .f32 = 32 ∨ (Rect.unit (s := S16x100000) (fun a => cc0_transform_1 i a * S16x3072.size a) (fun a => (Pipeline.Clip.of (cc0_transform_1 i a) (S16x3072.size a) (S16x100000.size a)).extent (S16x3072.size a)) fun a => Pipeline.Clip.inb (Pipeline.Clip.ok_of (hstart0_1 i a))).WholeWords (EltTy.packing .f32)
  hwxs0_1 : ∀ i : grid0.Coords, EltTy.bits .f32 = 32 ∨ (Rect.unit (s := S16x3072) (fun _ => 0) (fun a => (Pipeline.Clip.of (cc0_transform_1 i a) (S16x3072.size a) (S16x100000.size a)).extent (S16x3072.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S1024x16.size a
  hwx0_2 : ∀ i : grid0.Coords, EltTy.bits .f32 = 32 ∨ (Rect.block (s := S1024x16) S1024x16.size (cc0_transform_2 i) (hinb0_2 i)).WholeWords (EltTy.packing .f32)

variable [Facts₀]

def dot_S3072x1024_S16x3072_S1024x16_0_1_1_0_n_n : DotDims S3072x1024 S16x3072 S1024x16 where
  lhsContracting := [0]
  rhsContracting := [1]
  lhsNonContracting := [1]
  rhsNonContracting := [0]
  lhsBatch := []
  rhsBatch := []
  wf := dot_S3072x1024_S16x3072_S1024x16_0_1_1_0_n_n_wf
def dot_S1696x1024_S16x1696_S1024x16_0_1_1_0_n_n : DotDims S1696x1024 S16x1696 S1024x16 where
  lhsContracting := [0]
  rhsContracting := [1]
  lhsNonContracting := [1]
  rhsNonContracting := [0]
  lhsBatch := []
  rhsBatch := []
  wf := dot_S1696x1024_S16x1696_S1024x16_0_1_1_0_n_n_wf

abbrev win0_0 : Pipeline.Window sig grid0 :=
  Pipeline.Window.ofSpecClip (Memref.whole main_v0) S3072x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S16x3072.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v2) S1024x16.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) && !(k0_cond3 i == 1#1) | ⟨_ + 3, h⟩ => absurd h (Nat.not_lt.2 (Nat.le_add_left _ _))

class Facts : Prop extends Facts₀ where

variable [Facts]
-- ==== ReferenceIdeal.lean ====
abbrev S1024x100000 : Shape := ⟨2, ![1024, 100000]⟩
abbrev S100000x16 : Shape := ⟨2, ![100000, 16]⟩
abbrev S1024x16 : Shape := ⟨2, ![1024, 16]⟩

abbrev nBuf : Space → Nat
  | .hbm => 3
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S100000x16, .f32⟩
  | .hbm, ⟨2, _⟩ => ⟨S1024x16, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S1024x100000_S100000x16_S1024x16_1_0_0_1_n_n_wf : DotDims.WF S1024x100000 S100000x16 S1024x16 [1] [0] [0] [1] [] []

variable [Facts₀]

def dot_S1024x100000_S100000x16_S1024x16_1_0_0_1_n_n : DotDims S1024x100000 S100000x16 S1024x16 where
  lhsContracting := [1]
  rhsContracting := [0]
  lhsNonContracting := [0]
  rhsNonContracting := [1]
  lhsBatch := []
  rhsBatch := []
  wf := dot_S1024x100000_S100000x16_S1024x16_1_0_0_1_n_n_wf

class Facts : Prop extends Facts₀ where

variable [Facts]
-- ==== Proof.Kernel.Cases.lean ====
/-
  The grid of the K-blocked product has 33 points, one per slab of 3072 contraction indices. The body branches on
  the point: at point 0 it stores the slab's product, at points 1‥31 it adds the slab's product to what the output
  block holds, at point 32 it adds the product of the last slab's first 1696 rows (100000 = 32 · 3072 + 1696).
  Here: each branch condition in closed form over the grid; that exactly one branch runs at every point (so the
  output block is never idle); that the output block is written back at the last point only; and that the two input
  blocks lie wholly inside their arrays at every point but the last.
-/
import proofs.«118865_g9947144257871_rerun558fix_369_29_alg».proof.Proof.Gen.Kernel.Launch
import proofs.«118865_g9947144257871_rerun558fix_369_29_alg».proof.Proof.Gen.Kernel.Skeleton
import proofs.«118865_g9947144257871_rerun558fix_369_29_alg».proof.Proof.Gen.Kernel.Points
import proofs.«118865_g9947144257871_rerun558fix_369_29_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## The three branches over the grid -/

/-- The first branch runs at point 0 only. -/
theorem first_iff : ∀ t : Fin cfg0.N, k0_cond1 (grid0.coords t) = 1#1 ↔ t.val = 0 :=
  (by decide +kernel : ∀ t : Fin grid0.N, k0_cond1 (grid0.coords t) = 1#1 ↔ t.val = 0)
/-- The second at points 1‥31. -/
theorem full_iff : ∀ t : Fin cfg0.N, k0_cond2 (grid0.coords t) = 1#1 ↔ (0 < t.val ∧ t.val < 32) :=
  (by decide +kernel : ∀ t : Fin grid0.N, k0_cond2 (grid0.coords t) = 1#1 ↔ (0 < t.val ∧ t.val < 32))
/-- The third at point 32 only. -/
theorem tail_iff : ∀ t : Fin cfg0.N, k0_cond3 (grid0.coords t) = 1#1 ↔ t.val = 32 :=
  (by decide +kernel : ∀ t : Fin grid0.N, k0_cond3 (grid0.coords t) = 1#1 ↔ t.val = 32)

/-- One branch runs at every point: the output block is live throughout. -/
theorem live_out : ∀ t : Fin cfg0.N, cfg0.idle 2 (grid0.coords t) = false :=
  (by decide +kernel : ∀ t : Fin grid0.N, idle0 2 (grid0.coords t) = false)

/-- Before the last point both input blocks lie inside their arrays: nothing is cut. -/
theorem uncut_lhs : ∀ t : Fin cfg0.N, t.val < 32 → ∀ a, (cfg0.win 0).clip (grid0.coords t) a = none :=
  (by decide +kernel : ∀ t : Fin grid0.N, t.val < 32 → ∀ a, win0_0.clip (grid0.coords t) a = none)
theorem uncut_rhs : ∀ t : Fin cfg0.N, t.val < 32 → ∀ a, (cfg0.win 1).clip (grid0.coords t) a = none :=
  (by decide +kernel : ∀ t : Fin grid0.N, t.val < 32 → ∀ a, win0_1.clip (grid0.coords t) a = none)

/-- At the last point the first 1696 rows of the left block, and the first 1696 columns of the right block, are
    the part inside the arrays. -/
theorem tail_rows_lhs : ∀ t : Fin cfg0.N, t.val = 32 → (cfg0.win 0).xsize (grid0.coords t) = ![1696, 1024] :=
  (by decide +kernel : ∀ t : Fin grid0.N, t.val = 32 → win0_0.xsize (grid0.coords t) = ![1696, 1024])
theorem tail_cols_rhs : ∀ t : Fin cfg0.N, t.val = 32 → (cfg0.win 1).xsize (grid0.coords t) = ![16, 1696] :=
  (by decide +kernel : ∀ t : Fin grid0.N, t.val = 32 → win0_1.xsize (grid0.coords t) = ![16, 1696])

/-! ## The staging buffers the body is handed at a point -/

/-- One staging buffer of the output block, through which its contents are stated. -/
abbrev VO : View sig .tc .vmem S1024x16 .f32 := (Memref.whole cc0_stg2_0 : Memref sig .tc .vmem S1024x16 .f32).view
abbrev ms0 (t : Fin cfg0.N) : Memref sig .tc .vmem S3072x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x3072 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x16 .f32 := win0_2.stage (cfg0.slots t 2)
abbrev hs2 (t : Fin cfg0.N) : (ms2 t).IsWhole := hstage0_2 ((cfg0.slots t 2).cast nbuf0_2)

end Cert.Kernel.Body

end
-- ==== Proof.Kernel.FirstBlock.lean ====
/-
  The body at the first grid point, on any whole staging buffers: the left block `x0` (3072 × 1024) and the right
  block `x1` (16 × 3072) are read whole, the output buffer — holding anything — is overwritten whole. What the
  output buffer ends with is recorded as the list of pieces the body's stores write, found by running the body.
-/
import proofs.«118865_g9947144257871_rerun558fix_369_29_alg».proof.Proof.Kernel.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The body's triple when only the first branch runs: the input buffers are handed back as they were and the
    output buffer holds the pieces stored. -/
noncomputable def runFirst (c : Dev nD) (i : grid0.Coords)
    (arg1 : Memref sig .tc .vmem S3072x1024 .f32) (harg1 : arg1.IsWhole)
    (arg2 : Memref sig .tc .vmem S16x3072 .f32) (harg2 : arg2.IsWhole)
    (arg3 : Memref sig .tc .vmem S1024x16 .f32) (harg3 : arg3.IsWhole)
    (hc1 : k0_cond1 i = 1#1) (hc2 : ¬k0_cond2 i = 1#1) (hc3 : ¬k0_cond3 i = 1#1)
    (x0 : Vec F S3072x1024 .f32) (x1 : Vec F S16x3072 .f32) :
    { L : List (View.Piece (Elt F) S1024x16 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__mm_body i arg1 harg1 arg2 harg2 arg3 harg3) K } := by
  refine ⟨?_, fun E K => ?run⟩
  case run =>
    simp only [cc0__mm_body_eq_skeleton]; unfold cc0__mm_body_skel
    unfold owns
    iintro ⟨⟨%f0, %hf0, H0⟩, ⟨%f1, %hf1, H1⟩, ⟨%d2, %f2, -, H2⟩, Hk⟩
    obtain rfl := harg1.eq_unread hf0
    obtain rfl := harg2.eq_unread hf1
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Body

end
-- ==== Proof.Kernel.FullBlock.lean ====
/-
  The body at a grid point strictly between the first and the last, on any whole staging buffers: the output
  buffer's contents `xo`, the left block `x0` and the right block `x1` are read whole and the output buffer is
  overwritten whole. What it ends with is recorded as the pieces the body's stores write.
-/
import proofs.«118865_g9947144257871_rerun558fix_369_29_alg».proof.Proof.Kernel.FirstBlock

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The body's triple in this case: the input buffers and what the output buffer held go in; the input buffers are
    handed back as they were and the output buffer holds the pieces stored. -/
noncomputable def runFull (c : Dev nD) (i : grid0.Coords)
    (arg1 : Memref sig .tc .vmem S3072x1024 .f32) (harg1 : arg1.IsWhole)
    (arg2 : Memref sig .tc .vmem S16x3072 .f32) (harg2 : arg2.IsWhole)
    (arg3 : Memref sig .tc .vmem S1024x16 .f32) (harg3 : arg3.IsWhole)
    (hc1 : ¬k0_cond1 i = 1#1) (hc2 : k0_cond2 i = 1#1) (hc3 : ¬k0_cond3 i = 1#1)
    (x0 : Vec F S3072x1024 .f32) (x1 : Vec F S16x3072 .f32) (xo : Vec F S1024x16 .f32) :
    { L : List (View.Piece (Elt F) S1024x16 .f32) //
      ∀ (E : Set ℕ) (K : PUnit → sProp 𝕄),
        iprop(owns (c : Thread nD τ) arg1 fullShare x0 ∗ owns (c : Thread nD τ) arg2 fullShare x1
            ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__mm_body i arg1 harg1 arg2 harg2 arg3 harg3) K } := by
  refine ⟨?_, fun E K => ?run⟩
  case run =>
    simp only [cc0__mm_body_eq_skeleton]; unfold cc0__mm_body_skel
    unfold owns
    iintro ⟨⟨%f0, %hf0, H0⟩, ⟨%f1, %hf1, H1⟩, ⟨%f2, %hf2, H2⟩, Hk⟩
    obtain rfl := harg1.eq_unread hf0
    obtain rfl := harg2.eq_unread hf1
    obtain rfl := harg3.eq_unread hf2
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Body

end
-- ==== Proof.Kernel.TailBlock.lean ====
/-
  The body at the last grid point, on any whole staging buffers: the output buffer's contents `xo` are read whole,
  of the left block only its first 1696 rows and of the right block only its first 1696 columns — the part of the
  last slab inside the arrays —, and the output buffer is overwritten whole. What it ends with is recorded as the
  pieces the body's stores write.
-/
import proofs.«118865_g9947144257871_rerun558fix_369_29_alg».proof.Proof.Kernel.FullBlock

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The body's triple in this case: the input buffers and what the output buffer held go in; the input buffers are
    handed back as they were and the output buffer holds the pieces stored. -/
noncomputable def runTail (c : Dev nD) (i : grid0.Coords)
    (arg1 : Memref sig .tc .vmem S3072x1024 .f32) (harg1 : arg1.IsWhole)
    (arg2 : Memref sig .tc .vmem S16x3072 .f32) (harg2 : arg2.IsWhole)
    (arg3 : Memref sig .tc .vmem S1024x16 .f32) (harg3 : arg3.IsWhole)
    (hc1 : ¬k0_cond1 i = 1#1) (hc2 : ¬k0_cond2 i = 1#1) (hc3 : k0_cond3 i = 1#1)
    (x0 : Vec F S3072x1024 .f32) (x1 : Vec F S16x3072 .f32) (xo : Vec F S1024x16 .f32) :
    { L : List (View.Piece (Elt F) S1024x16 .f32) //
      ∀ (E : Set ℕ) (K : PUnit → sProp 𝕄),
        iprop(owns (c : Thread nD τ) arg1 fullShare x0 ∗ owns (c : Thread nD τ) arg2 fullShare x1
            ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__mm_body i arg1 harg1 arg2 harg2 arg3 harg3) K } := by
  refine ⟨?_, fun E K => ?run⟩
  case run =>
    simp only [cc0__mm_body_eq_skeleton]; unfold cc0__mm_body_skel
    unfold owns
    iintro ⟨⟨%f0, %hf0, H0⟩, ⟨%f1, %hf1, H1⟩, ⟨%f2, %hf2, H2⟩, Hk⟩
    obtain rfl := harg1.eq_unread hf0
    obtain rfl := harg2.eq_unread hf1
    obtain rfl := harg3.eq_unread hf2
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Body

end
-- ==== Proof.Kernel.Stored.lean ====
/-
  What each branch leaves in the output buffer, as a value. Every branch ends in ONE store through the whole output
  block, so the pieces the run recorded cover the block and read back as that store's payload:
    first point   the product of the two blocks into a zero accumulator;
    middle points what the buffer held plus that product;
    last point    what the buffer held plus the product of the left block's first 1696 rows with the right block's
                  first 1696 columns.
  The loads read the staging buffers whole (or, at the last point, their leading part), so the payloads are
  functions of the buffers' contents alone.
-/
import proofs.«118865_g9947144257871_rerun558fix_369_29_alg».proof.Proof.Kernel.TailBlock
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The first 1696 rows of a left block. -/
abbrev headRows (x0 : Vec F S3072x1024 .f32) : Vec F S1696x1024 .f32 :=
  View.ld x0 (Rect.unit (s := S3072x1024) ![0, 0] S1696x1024.size inb_S3072x1024_S1696x1024_0_0)
/-- The first 1696 columns of a right block. -/
abbrev headCols (x1 : Vec F S16x3072 .f32) : Vec F S16x1696 .f32 :=
  View.ld x1 (Rect.unit (s := S16x3072) ![0, 0] S16x1696.size inb_S16x3072_S16x1696_0_0)

/-! ## The stored pieces cover the output block -/

theorem cover_first (c : Dev nD) (i : grid0.Coords)
    (a1 : Memref sig .tc .vmem S3072x1024 .f32) (h1 : a1.IsWhole) (a2 : Memref sig .tc .vmem S16x3072 .f32) (h2 : a2.IsWhole)
    (a3 : Memref sig .tc .vmem S1024x16 .f32) (h3 : a3.IsWhole)
    (hc1 : k0_cond1 i = 1#1) (hc2 : ¬k0_cond2 i = 1#1) (hc3 : ¬k0_cond3 i = 1#1)
    (x0 : Vec F S3072x1024 .f32) (x1 : Vec F S16x3072 .f32) (y : S1024x16.Idx) :
    ∃ pc ∈ (runFirst c i a1 h1 a2 h2 a3 h3 hc1 hc2 hc3 x0 x1).1, y ∈ pc.1.set :=
  View.cover_of_tiledL (runFirst c i a1 h1 a2 h2 a3 h3 hc1 hc2 hc3 x0 x1).1 S1024x16.size (by sl_kernel_rfl) y

theorem cover_full (c : Dev nD) (i : grid0.Coords)
    (a1 : Memref sig .tc .vmem S3072x1024 .f32) (h1 : a1.IsWhole) (a2 : Memref sig .tc .vmem S16x3072 .f32) (h2 : a2.IsWhole)
    (a3 : Memref sig .tc .vmem S1024x16 .f32) (h3 : a3.IsWhole)
    (hc1 : ¬k0_cond1 i = 1#1) (hc2 : k0_cond2 i = 1#1) (hc3 : ¬k0_cond3 i = 1#1)
    (x0 : Vec F S3072x1024 .f32) (x1 : Vec F S16x3072 .f32) (xo : Vec F S1024x16 .f32) (y : S1024x16.Idx) :
    ∃ pc ∈ (runFull c i a1 h1 a2 h2 a3 h3 hc1 hc2 hc3 x0 x1 xo).1, y ∈ pc.1.set :=
  View.cover_of_tiledL (runFull c i a1 h1 a2 h2 a3 h3 hc1 hc2 hc3 x0 x1 xo).1 S1024x16.size (by sl_kernel_rfl) y

theorem cover_tail (c : Dev nD) (i : grid0.Coords)
    (a1 : Memref sig .tc .vmem S3072x1024 .f32) (h1 : a1.IsWhole) (a2 : Memref sig .tc .vmem S16x3072 .f32) (h2 : a2.IsWhole)
    (a3 : Memref sig .tc .vmem S1024x16 .f32) (h3 : a3.IsWhole)
    (hc1 : ¬k0_cond1 i = 1#1) (hc2 : ¬k0_cond2 i = 1#1) (hc3 : k0_cond3 i = 1#1)
    (x0 : Vec F S3072x1024 .f32) (x1 : Vec F S16x3072 .f32) (xo : Vec F S1024x16 .f32) (y : S1024x16.Idx) :
    ∃ pc ∈ (runTail c i a1 h1 a2 h2 a3 h3 hc1 hc2 hc3 x0 x1 xo).1, y ∈ pc.1.set :=
  View.cover_of_tiledL (runTail c i a1 h1 a2 h2 a3 h3 hc1 hc2 hc3 x0 x1 xo).1 S1024x16.size (by sl_kernel_rfl) y

/-! ## What the output buffer holds after each branch -/

/-- The pieces read back over contents nothing names. -/
def storedFirst (c : Dev nD) (i : grid0.Coords)
    (a1 : Memref sig .tc .vmem S3072x1024 .f32) (h1 : a1.IsWhole) (a2 : Memref sig .tc .vmem S16x3072 .f32) (h2 : a2.IsWhole)
    (a3 : Memref sig .tc .vmem S1024x16 .f32) (h3 : a3.IsWhole)
    (hc1 : k0_cond1 i = 1#1) (hc2 : ¬k0_cond2 i = 1#1) (hc3 : ¬k0_cond3 i = 1#1)
    (x0 : Vec F S3072x1024 .f32) (x1 : Vec F S16x3072 .f32) : Vec F S1024x16 .f32 :=
  VO.read (Elt F) (VO.writes (Elt F) VO.junk (runFirst c i a1 h1 a2 h2 a3 h3 hc1 hc2 hc3 x0 x1).1)
def storedFull (c : Dev nD) (i : grid0.Coords)
    (a1 : Memref sig .tc .vmem S3072x1024 .f32) (h1 : a1.IsWhole) (a2 : Memref sig .tc .vmem S16x3072 .f32) (h2 : a2.IsWhole)
    (a3 : Memref sig .tc .vmem S1024x16 .f32) (h3 : a3.IsWhole)
    (hc1 : ¬k0_cond1 i = 1#1) (hc2 : k0_cond2 i = 1#1) (hc3 : ¬k0_cond3 i = 1#1)
    (x0 : Vec F S3072x1024 .f32) (x1 : Vec F S16x3072 .f32) (xo : Vec F S1024x16 .f32) : Vec F S1024x16 .f32 :=
  VO.read (Elt F) (VO.writes (Elt F) VO.junk (runFull c i a1 h1 a2 h2 a3 h3 hc1 hc2 hc3 x0 x1 xo).1)
def storedTail (c : Dev nD) (i : grid0.Coords)
    (a1 : Memref sig .tc .vmem S3072x1024 .f32) (h1 : a1.IsWhole) (a2 : Memref sig .tc .vmem S16x3072 .f32) (h2 : a2.IsWhole)
    (a3 : Memref sig .tc .vmem S1024x16 .f32) (h3 : a3.IsWhole)
    (hc1 : ¬k0_cond1 i = 1#1) (hc2 : ¬k0_cond2 i = 1#1) (hc3 : k0_cond3 i = 1#1)
    (x0 : Vec F S3072x1024 .f32) (x1 : Vec F S16x3072 .f32) (xo : Vec F S1024x16 .f32) : Vec F S1024x16 .f32 :=
  VO.read (Elt F) (VO.writes (Elt F) VO.junk (runTail c i a1 h1 a2 h2 a3 h3 hc1 hc2 hc3 x0 x1 xo).1)

/-- First point: the slab's product. -/
theorem storedFirst_eq (c : Dev nD) (i : grid0.Coords)
    (a1 : Memref sig .tc .vmem S3072x1024 .f32) (h1 : a1.IsWhole) (a2 : Memref sig .tc .vmem S16x3072 .f32) (h2 : a2.IsWhole)
    (a3 : Memref sig .tc .vmem S1024x16 .f32) (h3 : a3.IsWhole)
    (hc1 : k0_cond1 i = 1#1) (hc2 : ¬k0_cond2 i = 1#1) (hc3 : ¬k0_cond3 i = 1#1)
    (x0 : Vec F S3072x1024 .f32) (x1 : Vec F S16x3072 .f32) :
    storedFirst c i a1 h1 a2 h2 a3 h3 hc1 hc2 hc3 x0 x1 = k0_pay1 x0 x1 := by
  unfold storedFirst
  rw [View.read_writes_eq_canon _ _ _ (cover_first c i a1 h1 a2 h2 a3 h3 hc1 hc2 hc3 x0 x1)]
  unfold runFirst
  dsimp only
  rw [View.canon_unit_zero hz]
  simp only [View.readAt_eq_ld, h1.read_unread, h2.read_unread, View.ld_unit_zero (S := S3072x1024) hz,
    View.ld_unit_zero (S := S16x3072) hz]

/-- Middle points: what the buffer held plus the slab's product. -/
theorem storedFull_eq (c : Dev nD) (i : grid0.Coords)
    (a1 : Memref sig .tc .vmem S3072x1024 .f32) (h1 : a1.IsWhole) (a2 : Memref sig .tc .vmem S16x3072 .f32) (h2 : a2.IsWhole)
    (a3 : Memref sig .tc .vmem S1024x16 .f32) (h3 : a3.IsWhole)
    (hc1 : ¬k0_cond1 i = 1#1) (hc2 : k0_cond2 i = 1#1) (hc3 : ¬k0_cond3 i = 1#1)
    (x0 : Vec F S3072x1024 .f32) (x1 : Vec F S16x3072 .f32) (xo : Vec F S1024x16 .f32) :
    storedFull c i a1 h1 a2 h2 a3 h3 hc1 hc2 hc3 x0 x1 xo = k0_pay2 xo x0 x1 := by
  unfold storedFull
  rw [View.read_writes_eq_canon _ _ _ (cover_full c i a1 h1 a2 h2 a3 h3 hc1 hc2 hc3 x0 x1 xo)]
  unfold runFull
  dsimp only
  rw [View.canon_unit_zero hz]
  simp only [View.readAt_eq_ld, h1.read_unread, h2.read_unread, h3.read_unread, View.ld_unit_zero (S := S3072x1024) hz,
    View.ld_unit_zero (S := S16x3072) hz, View.ld_unit_zero (S := S1024x16) hz]

/-- Last point: what the buffer held plus the product of the slab's part inside the arrays. -/
theorem storedTail_eq (c : Dev nD) (i : grid0.Coords)
    (a1 : Memref sig .tc .vmem S3072x1024 .f32) (h1 : a1.IsWhole) (a2 : Memref sig .tc .vmem S16x3072 .f32) (h2 : a2.IsWhole)
    (a3 : Memref sig .tc .vmem S1024x16 .f32) (h3 : a3.IsWhole)
    (hc1 : ¬k0_cond1 i = 1#1) (hc2 : ¬k0_cond2 i = 1#1) (hc3 : k0_cond3 i = 1#1)
    (x0 : Vec F S3072x1024 .f32) (x1 : Vec F S16x3072 .f32) (xo : Vec F S1024x16 .f32) :
    storedTail c i a1 h1 a2 h2 a3 h3 hc1 hc2 hc3 x0 x1 xo = k0_pay3 xo (headRows x0) (headCols x1) := by
  unfold storedTail
  rw [View.read_writes_eq_canon _ _ _ (cover_tail c i a1 h1 a2 h2 a3 h3 hc1 hc2 hc3 x0 x1 xo)]
  unfold runTail
  dsimp only
  rw [View.canon_unit_zero hz]
  simp only [View.readAt_eq_ld, h1.read_unread, h2.read_unread, h3.read_unread, View.ld_unit_zero (S := S1024x16) hz]

end Cert.Kernel.Body

end
-- ==== Proof.Kernel.Accumulator.lean ====
/-
  The accumulated product, point by point, and the frame run.

  At grid point `t` the pipeline hands the body the left operand's slab `t` (rows 3072·t ‥ of the transposed
  `x`) and the right operand's slab `t` (columns 3072·t ‥ of the transposed `W`). At the last point, `t = 32`,
  the slabs overhang the arrays: the fetch fills only the first 1696 rows (columns) of the staging buffers and the
  rest holds words nothing names. The body never reads that rest — at the last point it contracts only the leading
  1696 — so the output block after point `t`, the partial product over the slabs `0 ‥ t`, is a function of the
  slabs' parts inside the arrays alone. It is defined here by recursion on the point over buffers filled out with
  the zero word, and the body is shown to leave it whatever the buffers' tails hold.
-/
import proofs.«118865_g9947144257871_rerun558fix_369_29_alg».proof.Proof.Kernel.Stored

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The slabs as buffer contents -/

/-- The left slab at point `t` as a staging buffer holds it: its part inside the array, the zero word beyond. -/
def lhs (c : Dev nD) (t : Fin cfg0.N) : Vec F S3072x1024 .f32 :=
  win0_0.fill (grid0.coords t) (fun _ => Scalar.ofBits .f32 0#32) (iblk m c 0 t)
/-- The right slab likewise. -/
def rhs (c : Dev nD) (t : Fin cfg0.N) : Vec F S16x3072 .f32 :=
  win0_1.fill (grid0.coords t) (fun _ => Scalar.ofBits .f32 0#32) (iblk m c 1 t)

/-- Before the last point a slab lies inside its array: the buffer holds it whatever was there before. -/
theorem fill_lhs_of_lt (c : Dev nD) (t : Fin cfg0.N) (h : t.val < 32) (d : S3072x1024.Idx → Elt F .f32) :
    win0_0.fill (grid0.coords t) d (iblk m c 0 t) = lhs m c t :=
  Pipeline.fill_of_clip_none (cfg := cfg0) 0 _ (uncut_lhs t h) d _ _
theorem fill_rhs_of_lt (c : Dev nD) (t : Fin cfg0.N) (h : t.val < 32) (d : S16x3072.Idx → Elt F .f32) :
    win0_1.fill (grid0.coords t) d (iblk m c 1 t) = rhs m c t :=
  Pipeline.fill_of_clip_none (cfg := cfg0) 1 _ (uncut_rhs t h) d _ _

/-- At the last point the first 1696 rows of the left buffer are the fetched part, whatever the tail holds. -/
theorem headRows_fill (c : Dev nD) (t : Fin cfg0.N) (h : t.val = 32) (d : S3072x1024.Idx → Elt F .f32) :
    headRows (win0_0.fill (grid0.coords t) d (iblk m c 0 t)) = headRows (lhs m c t) := by
  funext x
  have hx0 : (x 0).val < 1696 := (x 0).isLt
  have hx1 : (x 1).val < 1024 := (x 1).isLt
  have hm : win0_0.moved (grid0.coords t)
      ((Rect.unit (s := S3072x1024) ![0, 0] S1696x1024.size inb_S3072x1024_S1696x1024_0_0).idx x) = true :=
    (win0_0.moved_iff _ _).mpr fun a => by
      have e := tail_rows_lhs t h
      match a with
      | ⟨0, _⟩ => show 0 + 1 * (x 0).val < win0_0.xsize (grid0.coords t) 0; rw [congrFun e 0]; show _ < 1696; omega
      | ⟨1, _⟩ => show 0 + 1 * (x 1).val < win0_0.xsize (grid0.coords t) 1; rw [congrFun e 1]; show _ < 1024; omega
  show win0_0.fill _ d _ _ = win0_0.fill _ _ _ _
  unfold Window.fill
  rw [dif_pos hm, dif_pos hm]
/-- and the first 1696 columns of the right buffer. -/
theorem headCols_fill (c : Dev nD) (t : Fin cfg0.N) (h : t.val = 32) (d : S16x3072.Idx → Elt F .f32) :
    headCols (win0_1.fill (grid0.coords t) d (iblk m c 1 t)) = headCols (rhs m c t) := by
  funext x
  have hx0 : (x 0).val < 16 := (x 0).isLt
  have hx1 : (x 1).val < 1696 := (x 1).isLt
  have hm : win0_1.moved (grid0.coords t)
      ((Rect.unit (s := S16x3072) ![0, 0] S16x1696.size inb_S16x3072_S16x1696_0_0).idx x) = true :=
    (win0_1.moved_iff _ _).mpr fun a => by
      have e := tail_cols_rhs t h
      match a with
      | ⟨0, _⟩ => show 0 + 1 * (x 0).val < win0_1.xsize (grid0.coords t) 0; rw [congrFun e 0]; show _ < 16; omega
      | ⟨1, _⟩ => show 0 + 1 * (x 1).val < win0_1.xsize (grid0.coords t) 1; rw [congrFun e 1]; show _ < 1696; omega
  show win0_1.fill _ d _ _ = win0_1.fill _ _ _ _
  unfold Window.fill
  rw [dif_pos hm, dif_pos hm]

/-! ## The partial product after each point -/

/-- What the output block holds after point `n`: the first slab's product, then each later slab's added — the last
    one's part inside the arrays only. -/
def acc (c : Dev nD) : (n : ℕ) → n < cfg0.N → Vec F S1024x16 .f32
  | 0, h => k0_pay1 (lhs m c ⟨0, h⟩) (rhs m c ⟨0, h⟩)
  | n + 1, h =>
    if n + 1 < 32 then k0_pay2 (acc c n (Nat.lt_of_succ_lt h)) (lhs m c ⟨n + 1, h⟩) (rhs m c ⟨n + 1, h⟩)
    else k0_pay3 (acc c n (Nat.lt_of_succ_lt h)) (headRows (lhs m c ⟨n + 1, h⟩)) (headCols (rhs m c ⟨n + 1, h⟩))

theorem acc_first (c : Dev nD) (t : Fin cfg0.N) (h0 : t.val = 0) :
    acc m c t.val t.isLt = k0_pay1 (lhs m c t) (rhs m c t) := by
  obtain ⟨n, hn⟩ := t
  cases n with
  | zero => rfl
  | succ n => exact absurd h0 (Nat.succ_ne_zero n)

theorem acc_full (c : Dev nD) (t : Fin cfg0.N) (h0 : t.val ≠ 0) (h : t.val < 32) :
    acc m c t.val t.isLt
      = k0_pay2 (acc m c (t.val - 1) (Nat.lt_of_le_of_lt (Nat.sub_le _ _) t.isLt)) (lhs m c t) (rhs m c t) := by
  obtain ⟨n, hn⟩ := t
  cases n with
  | zero => exact absurd rfl h0
  | succ n => exact (if_pos h).trans rfl

theorem acc_tail (c : Dev nD) (t : Fin cfg0.N) (h0 : t.val ≠ 0) (h : ¬t.val < 32) :
    acc m c t.val t.isLt
      = k0_pay3 (acc m c (t.val - 1) (Nat.lt_of_le_of_lt (Nat.sub_le _ _) t.isLt)) (headRows (lhs m c t)) (headCols (rhs m c t)) := by
  obtain ⟨n, hn⟩ := t
  cases n with
  | zero => exact absurd rfl h0
  | succ n => exact (if_neg h).trans rfl

/-! ## The pipeline's proof data -/

/-- The arrays as the region finds them; after the body at point `t` the input buffers at their slabs and the
    output buffer at the partial product; nothing else kept between points, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => lhs m c t
    | ⟨1, _⟩ => rhs m c t
    | ⟨2, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]
theorem after_lhs (c : Dev nD) (t : Fin cfg0.N) : (dats m 0 c).after 0 t = lhs m c t := by dsimp only [dats]
theorem after_rhs (c : Dev nD) (t : Fin cfg0.N) : (dats m 0 c).after 1 t = rhs m c t := by dsimp only [dats]
theorem after_out (c : Dev nD) (t : Fin cfg0.N) : (dats m 0 c).after 2 t = acc m c t.val t.isLt := by dsimp only [dats]

/-- An input buffer, fetched at every point, holds its slab's part inside the array and anything beyond. -/
theorem before_lhs (c : Dev nD) (t : Fin cfg0.N) (d) :
    (dats m 0 c).before 0 t d = win0_0.fill (grid0.coords t) d (iblk m c 0 t) := by
  rw [Dat.before_fetched _ 0 t (fetch0_0 t)]
  unfold Dat.fetched Dat.blockOf iblk
  rw [A_eq]
theorem before_rhs (c : Dev nD) (t : Fin cfg0.N) (d) :
    (dats m 0 c).before 1 t d = win0_1.fill (grid0.coords t) d (iblk m c 1 t) := by
  rw [Dat.before_fetched _ 1 t (fetch0_1 t)]
  unfold Dat.fetched Dat.blockOf iblk
  rw [A_eq]

/-- The output buffer is written back at the last point only, so at every later point it holds what the body
    left at the point before. -/
theorem before_out (c : Dev nD) (t : Fin cfg0.N) (h0 : t.val ≠ 0) (d) :
    (dats m 0 c).before 2 t d = acc m c (t.val - 1) (Nat.lt_of_le_of_lt (Nat.sub_le _ _) t.isLt) := by
  have hN : t.val < 33 := lt_of_lt_of_eq t.isLt (show cfg0.N = 33 from N_0)
  have hfl : (cfg0.win 2).flush ⟨t.val - 1, Nat.lt_of_le_of_lt (Nat.sub_le _ _) t.isLt⟩ = false :=
    Bool.eq_false_iff.mpr fun h => by have := (flush0_2 _).mp h; dsimp only at this; omega
  rw [(dats m 0 c).before_of_pos 2 t h0 ((cfg0.win 2).fetch_out rfl t), hfl, if_neg Bool.false_ne_true]
  unfold Dat.left
  rw [live_out]
  dsimp only
  unfold Dat.kept
  rw [Pipeline.fill_of_clip_none (cfg := cfg0) 2 _ (fun _ => rfl) d ((dats m 0 c).after 2 _), Window.fill_cut, after_out]

end Cert.Kernel.Body

end
-- ==== Proof.Kernel.Obligation.lean ====
/-
  The body at a generic grid point, and the run of the whole program.

  At point `t` the body is handed the two input buffers, each holding its slab's part inside the array and anything
  beyond, and the output buffer holding anything (`t = 0`) or the partial product over the slabs before `t`. Which
  branch runs is decided by `t` alone; each leaves the input buffers as they were and the output buffer at the
  partial product over the slabs up to `t` — the tails of the input buffers never enter it: before the last point
  there is no tail, and at the last point only the leading 1696 rows and columns are contracted.
-/
import proofs.«118865_g9947144257871_rerun558fix_369_29_alg».proof.Proof.Kernel.Accumulator

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the three buffers one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns: each input buffer at its slab inside the array and anything beyond, the output buffer at
    the partial product. -/
def bodyPost (c : Dev nD) (t : Fin cfg0.N) : sProp 𝕄 :=
  iprop((dats m 0 c).Φ t.succ ∗ (dats m 0 c).owesAt () t.succ
    ∗ (∃ d, owns (c : Thread nD τ) (ms0 t) fullShare
        (win0_0.fill (grid0.coords t) d (win0_0.cut (grid0.coords t) ((dats m 0 c).after 0 t))))
    ∗ (∃ d, owns (c : Thread nD τ) (ms1 t) fullShare
        (win0_1.fill (grid0.coords t) d (win0_1.cut (grid0.coords t) ((dats m 0 c).after 1 t))))
    ∗ owns (c : Thread nD τ) (ms2 t) fullShare ((dats m 0 c).after 2 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_lhs, before_rhs]
  rw [show (dats m 0 c).Φ t.succ = (dats m 0 c).Φ t.castSucc from rfl,
    show (dats m 0 c).owesAt () t.succ = (dats m 0 c).owesAt () t.castSucc from rfl,
    after_lhs, after_rhs, after_out,
    show win0_0.cut (grid0.coords t) (lhs m c t) = iblk m c 0 t from win0_0.cut_fill _ _ _,
    show win0_1.cut (grid0.coords t) (rhs m c t) = iblk m c 1 t from win0_1.cut_fill _ _ _]
  have hN : t.val < 33 := lt_of_lt_of_eq t.isLt (show cfg0.N = 33 from N_0)
  by_cases h0 : t.val = 0
  · -- the first point: the slab's product overwrites whatever the output buffer held
    have hc1 : k0_cond1 (grid0.coords t) = 1#1 := (first_iff t).mpr h0
    have hc2 : ¬k0_cond2 (grid0.coords t) = 1#1 := fun h => by have := (full_iff t).mp h; omega
    have hc3 : ¬k0_cond3 (grid0.coords t) = 1#1 := fun h => by have := (tail_iff t).mp h; omega
    rw [acc_first m c t h0]
    iintro ⟨HΦ, Ho, ⟨%d0, H0⟩, ⟨%d1, H1⟩, ⟨%d2, H2⟩⟩
    iapply ((runFirst c (grid0.coords t) _ _ _ _ _ _ hc1 hc2 hc3
      (win0_0.fill (grid0.coords t) d0 (iblk m c 0 t)) (win0_1.fill (grid0.coords t) d1 (iblk m c 1 t))).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexists d0; iexact H0
    isplitl [H1]; · iexists d1; iexact H1
    unfold owns; iexists _; isplitr
    swap; · iexact H2
    ipureintro
    refine (View.read_writes_of_cover _ _ VO VO.junk _ (cover_first c _ _ _ _ _ _ _ hc1 hc2 hc3 _ _)).trans ?_
    refine (storedFirst_eq c _ _ _ _ _ _ _ hc1 hc2 hc3 _ _).trans ?_
    rw [fill_lhs_of_lt m c t (by omega) d0, fill_rhs_of_lt m c t (by omega) d1]
  · simp only [before_out m c t h0]
    by_cases h32 : t.val < 32
    · -- a middle point: the slab's product is added to the partial product
      have hc1 : ¬k0_cond1 (grid0.coords t) = 1#1 := fun h => h0 ((first_iff t).mp h)
      have hc2 : k0_cond2 (grid0.coords t) = 1#1 := (full_iff t).mpr ⟨Nat.pos_of_ne_zero h0, h32⟩
      have hc3 : ¬k0_cond3 (grid0.coords t) = 1#1 := fun h => by have := (tail_iff t).mp h; omega
      rw [acc_full m c t h0 h32]
      iintro ⟨HΦ, Ho, ⟨%d0, H0⟩, ⟨%d1, H1⟩, ⟨%d2, H2⟩⟩
      iapply ((runFull c (grid0.coords t) _ _ _ _ _ _ hc1 hc2 hc3
        (win0_0.fill (grid0.coords t) d0 (iblk m c 0 t)) (win0_1.fill (grid0.coords t) d1 (iblk m c 1 t)) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexists d0; iexact H0
      isplitl [H1]; · iexists d1; iexact H1
      unfold owns; iexists _; isplitr
      swap; · iexact H2
      ipureintro
      refine (View.read_writes_of_cover _ _ VO VO.junk _ (cover_full c _ _ _ _ _ _ _ hc1 hc2 hc3 _ _ _)).trans ?_
      refine (storedFull_eq c _ _ _ _ _ _ _ hc1 hc2 hc3 _ _ _).trans ?_
      rw [fill_lhs_of_lt m c t h32 d0, fill_rhs_of_lt m c t h32 d1]
    · -- the last point: only the slab's part inside the arrays is contracted
      have h32' : t.val = 32 := by omega
      have hc1 : ¬k0_cond1 (grid0.coords t) = 1#1 := fun h => h0 ((first_iff t).mp h)
      have hc2 : ¬k0_cond2 (grid0.coords t) = 1#1 := fun h => h32 ((full_iff t).mp h).2
      have hc3 : k0_cond3 (grid0.coords t) = 1#1 := (tail_iff t).mpr h32'
      rw [acc_tail m c t h0 h32]
      iintro ⟨HΦ, Ho, ⟨%d0, H0⟩, ⟨%d1, H1⟩, ⟨%d2, H2⟩⟩
      iapply ((runTail c (grid0.coords t) _ _ _ _ _ _ hc1 hc2 hc3
        (win0_0.fill (grid0.coords t) d0 (iblk m c 0 t)) (win0_1.fill (grid0.coords t) d1 (iblk m c 1 t)) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexists d0; iexact H0
      isplitl [H1]; · iexists d1; iexact H1
      unfold owns; iexists _; isplitr
      swap; · iexact H2
      ipureintro
      refine (View.read_writes_of_cover _ _ VO VO.junk _ (cover_tail c _ _ _ _ _ _ _ hc1 hc2 hc3 _ _ _)).trans ?_
      refine (storedTail_eq c _ _ _ _ _ _ _ hc1 hc2 hc3 _ _ _).trans ?_
      rw [headRows_fill m c t h32' d0, headCols_fill m c t h32' d1]

/-- The library's body obligation, at every point: the two input windows may be cut at the arrays' end, so their
    buffers are handed back stated on the part inside the array only; the output window is live at every point. -/
theorem body_obligation (c : Dev nD) :
    BodyObligationLoose (dats (F := F) m 0 c) (defs₀ (F := F)) Variants.none () Set.univ := fun t => by
  rw [bigSep_W0, bigSep_W0]
  refine (sound_body m c t).trans (wp_mono _ _ _ fun _ => ?_)
  unfold bodyPost
  refine sep_mono .rfl (sep_mono .rfl (sep_mono .rfl (sep_mono .rfl ?_)))
  rw [live_out t]

end Cert.Kernel.Body

end
-- ==== Proof.Kernel.Run.lean ====
/-
  The run of the whole program and its frame: every weakly fair execution of @main terminates, nothing faults, the
  two argument arrays end as they were, and the result array ends at what the write-backs of the proof data leave —
  the partial product after the last point, written back once.
-/
import proofs.«118865_g9947144257871_rerun558fix_369_29_alg».proof.Proof.Kernel.Obligation

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

set_option backward.isDefEq.respectTransparency.types false in
/-- At the compiled mesh, for any values, from any memory with zero counters: every weakly fair execution of @main
    terminates, every array of the pipeline ends at what the library computes from the proof data, and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to the end and its two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KernelIdeal.Cases.lean ====
/-
  The grid of the K-blocked product has 33 points, one per slab of 3072 contraction indices. The body branches on
  the point: at point 0 it stores the slab's product, at points 1‥31 it adds the slab's product to what the output
  block holds, at point 32 it adds the product of the last slab's first 1696 rows (100000 = 32 · 3072 + 1696).
  Here: each branch condition in closed form over the grid; that exactly one branch runs at every point (so the
  output block is never idle); that the output block is written back at the last point only; and that the two input
  blocks lie wholly inside their arrays at every point but the last.
-/
import proofs.«118865_g9947144257871_rerun558fix_369_29_alg».proof.Proof.Gen.KernelIdeal.Launch
import proofs.«118865_g9947144257871_rerun558fix_369_29_alg».proof.Proof.Gen.KernelIdeal.Skeleton
import proofs.«118865_g9947144257871_rerun558fix_369_29_alg».proof.Proof.Gen.KernelIdeal.Points
import proofs.«118865_g9947144257871_rerun558fix_369_29_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## The three branches over the grid -/

/-- The first branch runs at point 0 only. -/
theorem first_iff : ∀ t : Fin cfg0.N, k0_cond1 (grid0.coords t) = 1#1 ↔ t.val = 0 :=
  (by decide +kernel : ∀ t : Fin grid0.N, k0_cond1 (grid0.coords t) = 1#1 ↔ t.val = 0)
/-- The second at points 1‥31. -/
theorem full_iff : ∀ t : Fin cfg0.N, k0_cond2 (grid0.coords t) = 1#1 ↔ (0 < t.val ∧ t.val < 32) :=
  (by decide +kernel : ∀ t : Fin grid0.N, k0_cond2 (grid0.coords t) = 1#1 ↔ (0 < t.val ∧ t.val < 32))
/-- The third at point 32 only. -/
theorem tail_iff : ∀ t : Fin cfg0.N, k0_cond3 (grid0.coords t) = 1#1 ↔ t.val = 32 :=
  (by decide +kernel : ∀ t : Fin grid0.N, k0_cond3 (grid0.coords t) = 1#1 ↔ t.val = 32)

/-- One branch runs at every point: the output block is live throughout. -/
theorem live_out : ∀ t : Fin cfg0.N, cfg0.idle 2 (grid0.coords t) = false :=
  (by decide +kernel : ∀ t : Fin grid0.N, idle0 2 (grid0.coords t) = false)

/-- Before the last point both input blocks lie inside their arrays: nothing is cut. -/
theorem uncut_lhs : ∀ t : Fin cfg0.N, t.val < 32 → ∀ a, (cfg0.win 0).clip (grid0.coords t) a = none :=
  (by decide +kernel : ∀ t : Fin grid0.N, t.val < 32 → ∀ a, win0_0.clip (grid0.coords t) a = none)
theorem uncut_rhs : ∀ t : Fin cfg0.N, t.val < 32 → ∀ a, (cfg0.win 1).clip (grid0.coords t) a = none :=
  (by decide +kernel : ∀ t : Fin grid0.N, t.val < 32 → ∀ a, win0_1.clip (grid0.coords t) a = none)

/-- At the last point the first 1696 rows of the left block, and the first 1696 columns of the right block, are
    the part inside the arrays. -/
theorem tail_rows_lhs : ∀ t : Fin cfg0.N, t.val = 32 → (cfg0.win 0).xsize (grid0.coords t) = ![1696, 1024] :=
  (by decide +kernel : ∀ t : Fin grid0.N, t.val = 32 → win0_0.xsize (grid0.coords t) = ![1696, 1024])
theorem tail_cols_rhs : ∀ t : Fin cfg0.N, t.val = 32 → (cfg0.win 1).xsize (grid0.coords t) = ![16, 1696] :=
  (by decide +kernel : ∀ t : Fin grid0.N, t.val = 32 → win0_1.xsize (grid0.coords t) = ![16, 1696])

/-! ## The staging buffers the body is handed at a point -/

/-- One staging buffer of the output block, through which its contents are stated. -/
abbrev VO : View sig .tc .vmem S1024x16 .f32 := (Memref.whole cc0_stg2_0 : Memref sig .tc .vmem S1024x16 .f32).view
abbrev ms0 (t : Fin cfg0.N) : Memref sig .tc .vmem S3072x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x3072 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x16 .f32 := win0_2.stage (cfg0.slots t 2)
abbrev hs2 (t : Fin cfg0.N) : (ms2 t).IsWhole := hstage0_2 ((cfg0.slots t 2).cast nbuf0_2)

end Cert.KernelIdeal.Body

end
-- ==== Proof.KernelIdeal.FirstBlock.lean ====
/-
  The body at the first grid point, on any whole staging buffers: the left block `x0` (3072 × 1024) and the right
  block `x1` (16 × 3072) are read whole, the output buffer — holding anything — is overwritten whole. What the
  output buffer ends with is recorded as the list of pieces the body's stores write, found by running the body.
-/
import proofs.«118865_g9947144257871_rerun558fix_369_29_alg».proof.Proof.KernelIdeal.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The body's triple when only the first branch runs: the input buffers are handed back as they were and the
    output buffer holds the pieces stored. -/
noncomputable def runFirst (c : Dev nD) (i : grid0.Coords)
    (arg1 : Memref sig .tc .vmem S3072x1024 .f32) (harg1 : arg1.IsWhole)
    (arg2 : Memref sig .tc .vmem S16x3072 .f32) (harg2 : arg2.IsWhole)
    (arg3 : Memref sig .tc .vmem S1024x16 .f32) (harg3 : arg3.IsWhole)
    (hc1 : k0_cond1 i = 1#1) (hc2 : ¬k0_cond2 i = 1#1) (hc3 : ¬k0_cond3 i = 1#1)
    (x0 : Vec F S3072x1024 .f32) (x1 : Vec F S16x3072 .f32) :
    { L : List (View.Piece (Elt F) S1024x16 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__mm_body i arg1 harg1 arg2 harg2 arg3 harg3) K } := by
  refine ⟨?_, fun E K => ?run⟩
  case run =>
    simp only [cc0__mm_body_eq_skeleton]; unfold cc0__mm_body_skel
    unfold owns
    iintro ⟨⟨%f0, %hf0, H0⟩, ⟨%f1, %hf1, H1⟩, ⟨%d2, %f2, -, H2⟩, Hk⟩
    obtain rfl := harg1.eq_unread hf0
    obtain rfl := harg2.eq_unread hf1
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Body

end
-- ==== Proof.KernelIdeal.FullBlock.lean ====
/-
  The body at a grid point strictly between the first and the last, on any whole staging buffers: the output
  buffer's contents `xo`, the left block `x0` and the right block `x1` are read whole and the output buffer is
  overwritten whole. What it ends with is recorded as the pieces the body's stores write.
-/
import proofs.«118865_g9947144257871_rerun558fix_369_29_alg».proof.Proof.KernelIdeal.FirstBlock

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The body's triple in this case: the input buffers and what the output buffer held go in; the input buffers are
    handed back as they were and the output buffer holds the pieces stored. -/
noncomputable def runFull (c : Dev nD) (i : grid0.Coords)
    (arg1 : Memref sig .tc .vmem S3072x1024 .f32) (harg1 : arg1.IsWhole)
    (arg2 : Memref sig .tc .vmem S16x3072 .f32) (harg2 : arg2.IsWhole)
    (arg3 : Memref sig .tc .vmem S1024x16 .f32) (harg3 : arg3.IsWhole)
    (hc1 : ¬k0_cond1 i = 1#1) (hc2 : k0_cond2 i = 1#1) (hc3 : ¬k0_cond3 i = 1#1)
    (x0 : Vec F S3072x1024 .f32) (x1 : Vec F S16x3072 .f32) (xo : Vec F S1024x16 .f32) :
    { L : List (View.Piece (Elt F) S1024x16 .f32) //
      ∀ (E : Set ℕ) (K : PUnit → sProp 𝕄),
        iprop(owns (c : Thread nD τ) arg1 fullShare x0 ∗ owns (c : Thread nD τ) arg2 fullShare x1
            ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__mm_body i arg1 harg1 arg2 harg2 arg3 harg3) K } := by
  refine ⟨?_, fun E K => ?run⟩
  case run =>
    simp only [cc0__mm_body_eq_skeleton]; unfold cc0__mm_body_skel
    unfold owns
    iintro ⟨⟨%f0, %hf0, H0⟩, ⟨%f1, %hf1, H1⟩, ⟨%f2, %hf2, H2⟩, Hk⟩
    obtain rfl := harg1.eq_unread hf0
    obtain rfl := harg2.eq_unread hf1
    obtain rfl := harg3.eq_unread hf2
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Body

end
-- ==== Proof.KernelIdeal.TailBlock.lean ====
/-
  The body at the last grid point, on any whole staging buffers: the output buffer's contents `xo` are read whole,
  of the left block only its first 1696 rows and of the right block only its first 1696 columns — the part of the
  last slab inside the arrays —, and the output buffer is overwritten whole. What it ends with is recorded as the
  pieces the body's stores write.
-/
import proofs.«118865_g9947144257871_rerun558fix_369_29_alg».proof.Proof.KernelIdeal.FullBlock

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The body's triple in this case: the input buffers and what the output buffer held go in; the input buffers are
    handed back as they were and the output buffer holds the pieces stored. -/
noncomputable def runTail (c : Dev nD) (i : grid0.Coords)
    (arg1 : Memref sig .tc .vmem S3072x1024 .f32) (harg1 : arg1.IsWhole)
    (arg2 : Memref sig .tc .vmem S16x3072 .f32) (harg2 : arg2.IsWhole)
    (arg3 : Memref sig .tc .vmem S1024x16 .f32) (harg3 : arg3.IsWhole)
    (hc1 : ¬k0_cond1 i = 1#1) (hc2 : ¬k0_cond2 i = 1#1) (hc3 : k0_cond3 i = 1#1)
    (x0 : Vec F S3072x1024 .f32) (x1 : Vec F S16x3072 .f32) (xo : Vec F S1024x16 .f32) :
    { L : List (View.Piece (Elt F) S1024x16 .f32) //
      ∀ (E : Set ℕ) (K : PUnit → sProp 𝕄),
        iprop(owns (c : Thread nD τ) arg1 fullShare x0 ∗ owns (c : Thread nD τ) arg2 fullShare x1
            ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__mm_body i arg1 harg1 arg2 harg2 arg3 harg3) K } := by
  refine ⟨?_, fun E K => ?run⟩
  case run =>
    simp only [cc0__mm_body_eq_skeleton]; unfold cc0__mm_body_skel
    unfold owns
    iintro ⟨⟨%f0, %hf0, H0⟩, ⟨%f1, %hf1, H1⟩, ⟨%f2, %hf2, H2⟩, Hk⟩
    obtain rfl := harg1.eq_unread hf0
    obtain rfl := harg2.eq_unread hf1
    obtain rfl := harg3.eq_unread hf2
    sl_exec (disch := first | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Body

end
-- ==== Proof.KernelIdeal.Stored.lean ====
/-
  What each branch leaves in the output buffer, as a value. Every branch ends in ONE store through the whole output
  block, so the pieces the run recorded cover the block and read back as that store's payload:
    first point   the product of the two blocks into a zero accumulator;
    middle points what the buffer held plus that product;
    last point    what the buffer held plus the product of the left block's first 1696 rows with the right block's
                  first 1696 columns.
  The loads read the staging buffers whole (or, at the last point, their leading part), so the payloads are
  functions of the buffers' contents alone.
-/
import proofs.«118865_g9947144257871_rerun558fix_369_29_alg».proof.Proof.KernelIdeal.TailBlock
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The first 1696 rows of a left block. -/
abbrev headRows (x0 : Vec F S3072x1024 .f32) : Vec F S1696x1024 .f32 :=
  View.ld x0 (Rect.unit (s := S3072x1024) ![0, 0] S1696x1024.size inb_S3072x1024_S1696x1024_0_0)
/-- The first 1696 columns of a right block. -/
abbrev headCols (x1 : Vec F S16x3072 .f32) : Vec F S16x1696 .f32 :=
  View.ld x1 (Rect.unit (s := S16x3072) ![0, 0] S16x1696.size inb_S16x3072_S16x1696_0_0)

/-! ## The stored pieces cover the output block -/

theorem cover_first (c : Dev nD) (i : grid0.Coords)
    (a1 : Memref sig .tc .vmem S3072x1024 .f32) (h1 : a1.IsWhole) (a2 : Memref sig .tc .vmem S16x3072 .f32) (h2 : a2.IsWhole)
    (a3 : Memref sig .tc .vmem S1024x16 .f32) (h3 : a3.IsWhole)
    (hc1 : k0_cond1 i = 1#1) (hc2 : ¬k0_cond2 i = 1#1) (hc3 : ¬k0_cond3 i = 1#1)
    (x0 : Vec F S3072x1024 .f32) (x1 : Vec F S16x3072 .f32) (y : S1024x16.Idx) :
    ∃ pc ∈ (runFirst c i a1 h1 a2 h2 a3 h3 hc1 hc2 hc3 x0 x1).1, y ∈ pc.1.set :=
  View.cover_of_tiledL (runFirst c i a1 h1 a2 h2 a3 h3 hc1 hc2 hc3 x0 x1).1 S1024x16.size (by sl_kernel_rfl) y

theorem cover_full (c : Dev nD) (i : grid0.Coords)
    (a1 : Memref sig .tc .vmem S3072x1024 .f32) (h1 : a1.IsWhole) (a2 : Memref sig .tc .vmem S16x3072 .f32) (h2 : a2.IsWhole)
    (a3 : Memref sig .tc .vmem S1024x16 .f32) (h3 : a3.IsWhole)
    (hc1 : ¬k0_cond1 i = 1#1) (hc2 : k0_cond2 i = 1#1) (hc3 : ¬k0_cond3 i = 1#1)
    (x0 : Vec F S3072x1024 .f32) (x1 : Vec F S16x3072 .f32) (xo : Vec F S1024x16 .f32) (y : S1024x16.Idx) :
    ∃ pc ∈ (runFull c i a1 h1 a2 h2 a3 h3 hc1 hc2 hc3 x0 x1 xo).1, y ∈ pc.1.set :=
  View.cover_of_tiledL (runFull c i a1 h1 a2 h2 a3 h3 hc1 hc2 hc3 x0 x1 xo).1 S1024x16.size (by sl_kernel_rfl) y

theorem cover_tail (c : Dev nD) (i : grid0.Coords)
    (a1 : Memref sig .tc .vmem S3072x1024 .f32) (h1 : a1.IsWhole) (a2 : Memref sig .tc .vmem S16x3072 .f32) (h2 : a2.IsWhole)
    (a3 : Memref sig .tc .vmem S1024x16 .f32) (h3 : a3.IsWhole)
    (hc1 : ¬k0_cond1 i = 1#1) (hc2 : ¬k0_cond2 i = 1#1) (hc3 : k0_cond3 i = 1#1)
    (x0 : Vec F S3072x1024 .f32) (x1 : Vec F S16x3072 .f32) (xo : Vec F S1024x16 .f32) (y : S1024x16.Idx) :
    ∃ pc ∈ (runTail c i a1 h1 a2 h2 a3 h3 hc1 hc2 hc3 x0 x1 xo).1, y ∈ pc.1.set :=
  View.cover_of_tiledL (runTail c i a1 h1 a2 h2 a3 h3 hc1 hc2 hc3 x0 x1 xo).1 S1024x16.size (by sl_kernel_rfl) y

/-! ## What the output buffer holds after each branch -/

/-- The pieces read back over contents nothing names. -/
def storedFirst (c : Dev nD) (i : grid0.Coords)
    (a1 : Memref sig .tc .vmem S3072x1024 .f32) (h1 : a1.IsWhole) (a2 : Memref sig .tc .vmem S16x3072 .f32) (h2 : a2.IsWhole)
    (a3 : Memref sig .tc .vmem S1024x16 .f32) (h3 : a3.IsWhole)
    (hc1 : k0_cond1 i = 1#1) (hc2 : ¬k0_cond2 i = 1#1) (hc3 : ¬k0_cond3 i = 1#1)
    (x0 : Vec F S3072x1024 .f32) (x1 : Vec F S16x3072 .f32) : Vec F S1024x16 .f32 :=
  VO.read (Elt F) (VO.writes (Elt F) VO.junk (runFirst c i a1 h1 a2 h2 a3 h3 hc1 hc2 hc3 x0 x1).1)
def storedFull (c : Dev nD) (i : grid0.Coords)
    (a1 : Memref sig .tc .vmem S3072x1024 .f32) (h1 : a1.IsWhole) (a2 : Memref sig .tc .vmem S16x3072 .f32) (h2 : a2.IsWhole)
    (a3 : Memref sig .tc .vmem S1024x16 .f32) (h3 : a3.IsWhole)
    (hc1 : ¬k0_cond1 i = 1#1) (hc2 : k0_cond2 i = 1#1) (hc3 : ¬k0_cond3 i = 1#1)
    (x0 : Vec F S3072x1024 .f32) (x1 : Vec F S16x3072 .f32) (xo : Vec F S1024x16 .f32) : Vec F S1024x16 .f32 :=
  VO.read (Elt F) (VO.writes (Elt F) VO.junk (runFull c i a1 h1 a2 h2 a3 h3 hc1 hc2 hc3 x0 x1 xo).1)
def storedTail (c : Dev nD) (i : grid0.Coords)
    (a1 : Memref sig .tc .vmem S3072x1024 .f32) (h1 : a1.IsWhole) (a2 : Memref sig .tc .vmem S16x3072 .f32) (h2 : a2.IsWhole)
    (a3 : Memref sig .tc .vmem S1024x16 .f32) (h3 : a3.IsWhole)
    (hc1 : ¬k0_cond1 i = 1#1) (hc2 : ¬k0_cond2 i = 1#1) (hc3 : k0_cond3 i = 1#1)
    (x0 : Vec F S3072x1024 .f32) (x1 : Vec F S16x3072 .f32) (xo : Vec F S1024x16 .f32) : Vec F S1024x16 .f32 :=
  VO.read (Elt F) (VO.writes (Elt F) VO.junk (runTail c i a1 h1 a2 h2 a3 h3 hc1 hc2 hc3 x0 x1 xo).1)

/-- First point: the slab's product. -/
theorem storedFirst_eq (c : Dev nD) (i : grid0.Coords)
    (a1 : Memref sig .tc .vmem S3072x1024 .f32) (h1 : a1.IsWhole) (a2 : Memref sig .tc .vmem S16x3072 .f32) (h2 : a2.IsWhole)
    (a3 : Memref sig .tc .vmem S1024x16 .f32) (h3 : a3.IsWhole)
    (hc1 : k0_cond1 i = 1#1) (hc2 : ¬k0_cond2 i = 1#1) (hc3 : ¬k0_cond3 i = 1#1)
    (x0 : Vec F S3072x1024 .f32) (x1 : Vec F S16x3072 .f32) :
    storedFirst c i a1 h1 a2 h2 a3 h3 hc1 hc2 hc3 x0 x1 = k0_pay1 x0 x1 := by
  unfold storedFirst
  rw [View.read_writes_eq_canon _ _ _ (cover_first c i a1 h1 a2 h2 a3 h3 hc1 hc2 hc3 x0 x1)]
  unfold runFirst
  dsimp only
  rw [View.canon_unit_zero hz]
  simp only [View.readAt_eq_ld, h1.read_unread, h2.read_unread, View.ld_unit_zero (S := S3072x1024) hz,
    View.ld_unit_zero (S := S16x3072) hz]

/-- Middle points: what the buffer held plus the slab's product. -/
theorem storedFull_eq (c : Dev nD) (i : grid0.Coords)
    (a1 : Memref sig .tc .vmem S3072x1024 .f32) (h1 : a1.IsWhole) (a2 : Memref sig .tc .vmem S16x3072 .f32) (h2 : a2.IsWhole)
    (a3 : Memref sig .tc .vmem S1024x16 .f32) (h3 : a3.IsWhole)
    (hc1 : ¬k0_cond1 i = 1#1) (hc2 : k0_cond2 i = 1#1) (hc3 : ¬k0_cond3 i = 1#1)
    (x0 : Vec F S3072x1024 .f32) (x1 : Vec F S16x3072 .f32) (xo : Vec F S1024x16 .f32) :
    storedFull c i a1 h1 a2 h2 a3 h3 hc1 hc2 hc3 x0 x1 xo = k0_pay2 xo x0 x1 := by
  unfold storedFull
  rw [View.read_writes_eq_canon _ _ _ (cover_full c i a1 h1 a2 h2 a3 h3 hc1 hc2 hc3 x0 x1 xo)]
  unfold runFull
  dsimp only
  rw [View.canon_unit_zero hz]
  simp only [View.readAt_eq_ld, h1.read_unread, h2.read_unread, h3.read_unread, View.ld_unit_zero (S := S3072x1024) hz,
    View.ld_unit_zero (S := S16x3072) hz, View.ld_unit_zero (S := S1024x16) hz]

/-- Last point: what the buffer held plus the product of the slab's part inside the arrays. -/
theorem storedTail_eq (c : Dev nD) (i : grid0.Coords)
    (a1 : Memref sig .tc .vmem S3072x1024 .f32) (h1 : a1.IsWhole) (a2 : Memref sig .tc .vmem S16x3072 .f32) (h2 : a2.IsWhole)
    (a3 : Memref sig .tc .vmem S1024x16 .f32) (h3 : a3.IsWhole)
    (hc1 : ¬k0_cond1 i = 1#1) (hc2 : ¬k0_cond2 i = 1#1) (hc3 : k0_cond3 i = 1#1)
    (x0 : Vec F S3072x1024 .f32) (x1 : Vec F S16x3072 .f32) (xo : Vec F S1024x16 .f32) :
    storedTail c i a1 h1 a2 h2 a3 h3 hc1 hc2 hc3 x0 x1 xo = k0_pay3 xo (headRows x0) (headCols x1) := by
  unfold storedTail
  rw [View.read_writes_eq_canon _ _ _ (cover_tail c i a1 h1 a2 h2 a3 h3 hc1 hc2 hc3 x0 x1 xo)]
  unfold runTail
  dsimp only
  rw [View.canon_unit_zero hz]
  simp only [View.readAt_eq_ld, h1.read_unread, h2.read_unread, h3.read_unread, View.ld_unit_zero (S := S1024x16) hz]

end Cert.KernelIdeal.Body

end
-- ==== Proof.KernelIdeal.Accumulator.lean ====
/-
  The accumulated product, point by point, and the frame run.

  At grid point `t` the pipeline hands the body the left operand's slab `t` (rows 3072·t ‥ of the transposed
  `x`) and the right operand's slab `t` (columns 3072·t ‥ of the transposed `W`). At the last point, `t = 32`,
  the slabs overhang the arrays: the fetch fills only the first 1696 rows (columns) of the staging buffers and the
  rest holds words nothing names. The body never reads that rest — at the last point it contracts only the leading
  1696 — so the output block after point `t`, the partial product over the slabs `0 ‥ t`, is a function of the
  slabs' parts inside the arrays alone. It is defined here by recursion on the point over buffers filled out with
  the zero word, and the body is shown to leave it whatever the buffers' tails hold.
-/
import proofs.«118865_g9947144257871_rerun558fix_369_29_alg».proof.Proof.KernelIdeal.Stored

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The slabs as buffer contents -/

/-- The left slab at point `t` as a staging buffer holds it: its part inside the array, the zero word beyond. -/
def lhs (c : Dev nD) (t : Fin cfg0.N) : Vec F S3072x1024 .f32 :=
  win0_0.fill (grid0.coords t) (fun _ => Scalar.ofBits .f32 0#32) (iblk m c 0 t)
/-- The right slab likewise. -/
def rhs (c : Dev nD) (t : Fin cfg0.N) : Vec F S16x3072 .f32 :=
  win0_1.fill (grid0.coords t) (fun _ => Scalar.ofBits .f32 0#32) (iblk m c 1 t)

/-- Before the last point a slab lies inside its array: the buffer holds it whatever was there before. -/
theorem fill_lhs_of_lt (c : Dev nD) (t : Fin cfg0.N) (h : t.val < 32) (d : S3072x1024.Idx → Elt F .f32) :
    win0_0.fill (grid0.coords t) d (iblk m c 0 t) = lhs m c t :=
  Pipeline.fill_of_clip_none (cfg := cfg0) 0 _ (uncut_lhs t h) d _ _
theorem fill_rhs_of_lt (c : Dev nD) (t : Fin cfg0.N) (h : t.val < 32) (d : S16x3072.Idx → Elt F .f32) :
    win0_1.fill (grid0.coords t) d (iblk m c 1 t) = rhs m c t :=
  Pipeline.fill_of_clip_none (cfg := cfg0) 1 _ (uncut_rhs t h) d _ _

/-- At the last point the first 1696 rows of the left buffer are the fetched part, whatever the tail holds. -/
theorem headRows_fill (c : Dev nD) (t : Fin cfg0.N) (h : t.val = 32) (d : S3072x1024.Idx → Elt F .f32) :
    headRows (win0_0.fill (grid0.coords t) d (iblk m c 0 t)) = headRows (lhs m c t) := by
  funext x
  have hx0 : (x 0).val < 1696 := (x 0).isLt
  have hx1 : (x 1).val < 1024 := (x 1).isLt
  have hm : win0_0.moved (grid0.coords t)
      ((Rect.unit (s := S3072x1024) ![0, 0] S1696x1024.size inb_S3072x1024_S1696x1024_0_0).idx x) = true :=
    (win0_0.moved_iff _ _).mpr fun a => by
      have e := tail_rows_lhs t h
      match a with
      | ⟨0, _⟩ => show 0 + 1 * (x 0).val < win0_0.xsize (grid0.coords t) 0; rw [congrFun e 0]; show _ < 1696; omega
      | ⟨1, _⟩ => show 0 + 1 * (x 1).val < win0_0.xsize (grid0.coords t) 1; rw [congrFun e 1]; show _ < 1024; omega
  show win0_0.fill _ d _ _ = win0_0.fill _ _ _ _
  unfold Window.fill
  rw [dif_pos hm, dif_pos hm]
/-- and the first 1696 columns of the right buffer. -/
theorem headCols_fill (c : Dev nD) (t : Fin cfg0.N) (h : t.val = 32) (d : S16x3072.Idx → Elt F .f32) :
    headCols (win0_1.fill (grid0.coords t) d (iblk m c 1 t)) = headCols (rhs m c t) := by
  funext x
  have hx0 : (x 0).val < 16 := (x 0).isLt
  have hx1 : (x 1).val < 1696 := (x 1).isLt
  have hm : win0_1.moved (grid0.coords t)
      ((Rect.unit (s := S16x3072) ![0, 0] S16x1696.size inb_S16x3072_S16x1696_0_0).idx x) = true :=
    (win0_1.moved_iff _ _).mpr fun a => by
      have e := tail_cols_rhs t h
      match a with
      | ⟨0, _⟩ => show 0 + 1 * (x 0).val < win0_1.xsize (grid0.coords t) 0; rw [congrFun e 0]; show _ < 16; omega
      | ⟨1, _⟩ => show 0 + 1 * (x 1).val < win0_1.xsize (grid0.coords t) 1; rw [congrFun e 1]; show _ < 1696; omega
  show win0_1.fill _ d _ _ = win0_1.fill _ _ _ _
  unfold Window.fill
  rw [dif_pos hm, dif_pos hm]

/-! ## The partial product after each point -/

/-- What the output block holds after point `n`: the first slab's product, then each later slab's added — the last
    one's part inside the arrays only. -/
def acc (c : Dev nD) : (n : ℕ) → n < cfg0.N → Vec F S1024x16 .f32
  | 0, h => k0_pay1 (lhs m c ⟨0, h⟩) (rhs m c ⟨0, h⟩)
  | n + 1, h =>
    if n + 1 < 32 then k0_pay2 (acc c n (Nat.lt_of_succ_lt h)) (lhs m c ⟨n + 1, h⟩) (rhs m c ⟨n + 1, h⟩)
    else k0_pay3 (acc c n (Nat.lt_of_succ_lt h)) (headRows (lhs m c ⟨n + 1, h⟩)) (headCols (rhs m c ⟨n + 1, h⟩))

theorem acc_first (c : Dev nD) (t : Fin cfg0.N) (h0 : t.val = 0) :
    acc m c t.val t.isLt = k0_pay1 (lhs m c t) (rhs m c t) := by
  obtain ⟨n, hn⟩ := t
  cases n with
  | zero => rfl
  | succ n => exact absurd h0 (Nat.succ_ne_zero n)

theorem acc_full (c : Dev nD) (t : Fin cfg0.N) (h0 : t.val ≠ 0) (h : t.val < 32) :
    acc m c t.val t.isLt
      = k0_pay2 (acc m c (t.val - 1) (Nat.lt_of_le_of_lt (Nat.sub_le _ _) t.isLt)) (lhs m c t) (rhs m c t) := by
  obtain ⟨n, hn⟩ := t
  cases n with
  | zero => exact absurd rfl h0
  | succ n => exact (if_pos h).trans rfl

theorem acc_tail (c : Dev nD) (t : Fin cfg0.N) (h0 : t.val ≠ 0) (h : ¬t.val < 32) :
    acc m c t.val t.isLt
      = k0_pay3 (acc m c (t.val - 1) (Nat.lt_of_le_of_lt (Nat.sub_le _ _) t.isLt)) (headRows (lhs m c t)) (headCols (rhs m c t)) := by
  obtain ⟨n, hn⟩ := t
  cases n with
  | zero => exact absurd rfl h0
  | succ n => exact (if_neg h).trans rfl

/-! ## The pipeline's proof data -/

/-- The arrays as the region finds them; after the body at point `t` the input buffers at their slabs and the
    output buffer at the partial product; nothing else kept between points, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => lhs m c t
    | ⟨1, _⟩ => rhs m c t
    | ⟨2, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]
theorem after_lhs (c : Dev nD) (t : Fin cfg0.N) : (dats m 0 c).after 0 t = lhs m c t := by dsimp only [dats]
theorem after_rhs (c : Dev nD) (t : Fin cfg0.N) : (dats m 0 c).after 1 t = rhs m c t := by dsimp only [dats]
theorem after_out (c : Dev nD) (t : Fin cfg0.N) : (dats m 0 c).after 2 t = acc m c t.val t.isLt := by dsimp only [dats]

/-- An input buffer, fetched at every point, holds its slab's part inside the array and anything beyond. -/
theorem before_lhs (c : Dev nD) (t : Fin cfg0.N) (d) :
    (dats m 0 c).before 0 t d = win0_0.fill (grid0.coords t) d (iblk m c 0 t) := by
  rw [Dat.before_fetched _ 0 t (fetch0_0 t)]
  unfold Dat.fetched Dat.blockOf iblk
  rw [A_eq]
theorem before_rhs (c : Dev nD) (t : Fin cfg0.N) (d) :
    (dats m 0 c).before 1 t d = win0_1.fill (grid0.coords t) d (iblk m c 1 t) := by
  rw [Dat.before_fetched _ 1 t (fetch0_1 t)]
  unfold Dat.fetched Dat.blockOf iblk
  rw [A_eq]

/-- The output buffer is written back at the last point only, so at every later point it holds what the body
    left at the point before. -/
theorem before_out (c : Dev nD) (t : Fin cfg0.N) (h0 : t.val ≠ 0) (d) :
    (dats m 0 c).before 2 t d = acc m c (t.val - 1) (Nat.lt_of_le_of_lt (Nat.sub_le _ _) t.isLt) := by
  have hN : t.val < 33 := lt_of_lt_of_eq t.isLt (show cfg0.N = 33 from N_0)
  have hfl : (cfg0.win 2).flush ⟨t.val - 1, Nat.lt_of_le_of_lt (Nat.sub_le _ _) t.isLt⟩ = false :=
    Bool.eq_false_iff.mpr fun h => by have := (flush0_2 _).mp h; dsimp only at this; omega
  rw [(dats m 0 c).before_of_pos 2 t h0 ((cfg0.win 2).fetch_out rfl t), hfl, if_neg Bool.false_ne_true]
  unfold Dat.left
  rw [live_out]
  dsimp only
  unfold Dat.kept
  rw [Pipeline.fill_of_clip_none (cfg := cfg0) 2 _ (fun _ => rfl) d ((dats m 0 c).after 2 _), Window.fill_cut, after_out]

end Cert.KernelIdeal.Body

end
-- ==== Proof.KernelIdeal.Obligation.lean ====
/-
  The body at a generic grid point, and the run of the whole program.

  At point `t` the body is handed the two input buffers, each holding its slab's part inside the array and anything
  beyond, and the output buffer holding anything (`t = 0`) or the partial product over the slabs before `t`. Which
  branch runs is decided by `t` alone; each leaves the input buffers as they were and the output buffer at the
  partial product over the slabs up to `t` — the tails of the input buffers never enter it: before the last point
  there is no tail, and at the last point only the leading 1696 rows and columns are contracted.
-/
import proofs.«118865_g9947144257871_rerun558fix_369_29_alg».proof.Proof.KernelIdeal.Accumulator

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the three buffers one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns: each input buffer at its slab inside the array and anything beyond, the output buffer at
    the partial product. -/
def bodyPost (c : Dev nD) (t : Fin cfg0.N) : sProp 𝕄 :=
  iprop((dats m 0 c).Φ t.succ ∗ (dats m 0 c).owesAt () t.succ
    ∗ (∃ d, owns (c : Thread nD τ) (ms0 t) fullShare
        (win0_0.fill (grid0.coords t) d (win0_0.cut (grid0.coords t) ((dats m 0 c).after 0 t))))
    ∗ (∃ d, owns (c : Thread nD τ) (ms1 t) fullShare
        (win0_1.fill (grid0.coords t) d (win0_1.cut (grid0.coords t) ((dats m 0 c).after 1 t))))
    ∗ owns (c : Thread nD τ) (ms2 t) fullShare ((dats m 0 c).after 2 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_lhs, before_rhs]
  rw [show (dats m 0 c).Φ t.succ = (dats m 0 c).Φ t.castSucc from rfl,
    show (dats m 0 c).owesAt () t.succ = (dats m 0 c).owesAt () t.castSucc from rfl,
    after_lhs, after_rhs, after_out,
    show win0_0.cut (grid0.coords t) (lhs m c t) = iblk m c 0 t from win0_0.cut_fill _ _ _,
    show win0_1.cut (grid0.coords t) (rhs m c t) = iblk m c 1 t from win0_1.cut_fill _ _ _]
  have hN : t.val < 33 := lt_of_lt_of_eq t.isLt (show cfg0.N = 33 from N_0)
  by_cases h0 : t.val = 0
  · -- the first point: the slab's product overwrites whatever the output buffer held
    have hc1 : k0_cond1 (grid0.coords t) = 1#1 := (first_iff t).mpr h0
    have hc2 : ¬k0_cond2 (grid0.coords t) = 1#1 := fun h => by have := (full_iff t).mp h; omega
    have hc3 : ¬k0_cond3 (grid0.coords t) = 1#1 := fun h => by have := (tail_iff t).mp h; omega
    rw [acc_first m c t h0]
    iintro ⟨HΦ, Ho, ⟨%d0, H0⟩, ⟨%d1, H1⟩, ⟨%d2, H2⟩⟩
    iapply ((runFirst c (grid0.coords t) _ _ _ _ _ _ hc1 hc2 hc3
      (win0_0.fill (grid0.coords t) d0 (iblk m c 0 t)) (win0_1.fill (grid0.coords t) d1 (iblk m c 1 t))).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexists d0; iexact H0
    isplitl [H1]; · iexists d1; iexact H1
    unfold owns; iexists _; isplitr
    swap; · iexact H2
    ipureintro
    refine (View.read_writes_of_cover _ _ VO VO.junk _ (cover_first c _ _ _ _ _ _ _ hc1 hc2 hc3 _ _)).trans ?_
    refine (storedFirst_eq c _ _ _ _ _ _ _ hc1 hc2 hc3 _ _).trans ?_
    rw [fill_lhs_of_lt m c t (by omega) d0, fill_rhs_of_lt m c t (by omega) d1]
  · simp only [before_out m c t h0]
    by_cases h32 : t.val < 32
    · -- a middle point: the slab's product is added to the partial product
      have hc1 : ¬k0_cond1 (grid0.coords t) = 1#1 := fun h => h0 ((first_iff t).mp h)
      have hc2 : k0_cond2 (grid0.coords t) = 1#1 := (full_iff t).mpr ⟨Nat.pos_of_ne_zero h0, h32⟩
      have hc3 : ¬k0_cond3 (grid0.coords t) = 1#1 := fun h => by have := (tail_iff t).mp h; omega
      rw [acc_full m c t h0 h32]
      iintro ⟨HΦ, Ho, ⟨%d0, H0⟩, ⟨%d1, H1⟩, ⟨%d2, H2⟩⟩
      iapply ((runFull c (grid0.coords t) _ _ _ _ _ _ hc1 hc2 hc3
        (win0_0.fill (grid0.coords t) d0 (iblk m c 0 t)) (win0_1.fill (grid0.coords t) d1 (iblk m c 1 t)) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexists d0; iexact H0
      isplitl [H1]; · iexists d1; iexact H1
      unfold owns; iexists _; isplitr
      swap; · iexact H2
      ipureintro
      refine (View.read_writes_of_cover _ _ VO VO.junk _ (cover_full c _ _ _ _ _ _ _ hc1 hc2 hc3 _ _ _)).trans ?_
      refine (storedFull_eq c _ _ _ _ _ _ _ hc1 hc2 hc3 _ _ _).trans ?_
      rw [fill_lhs_of_lt m c t h32 d0, fill_rhs_of_lt m c t h32 d1]
    · -- the last point: only the slab's part inside the arrays is contracted
      have h32' : t.val = 32 := by omega
      have hc1 : ¬k0_cond1 (grid0.coords t) = 1#1 := fun h => h0 ((first_iff t).mp h)
      have hc2 : ¬k0_cond2 (grid0.coords t) = 1#1 := fun h => h32 ((full_iff t).mp h).2
      have hc3 : k0_cond3 (grid0.coords t) = 1#1 := (tail_iff t).mpr h32'
      rw [acc_tail m c t h0 h32]
      iintro ⟨HΦ, Ho, ⟨%d0, H0⟩, ⟨%d1, H1⟩, ⟨%d2, H2⟩⟩
      iapply ((runTail c (grid0.coords t) _ _ _ _ _ _ hc1 hc2 hc3
        (win0_0.fill (grid0.coords t) d0 (iblk m c 0 t)) (win0_1.fill (grid0.coords t) d1 (iblk m c 1 t)) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexists d0; iexact H0
      isplitl [H1]; · iexists d1; iexact H1
      unfold owns; iexists _; isplitr
      swap; · iexact H2
      ipureintro
      refine (View.read_writes_of_cover _ _ VO VO.junk _ (cover_tail c _ _ _ _ _ _ _ hc1 hc2 hc3 _ _ _)).trans ?_
      refine (storedTail_eq c _ _ _ _ _ _ _ hc1 hc2 hc3 _ _ _).trans ?_
      rw [headRows_fill m c t h32' d0, headCols_fill m c t h32' d1]

/-- The library's body obligation, at every point: the two input windows may be cut at the arrays' end, so their
    buffers are handed back stated on the part inside the array only; the output window is live at every point. -/
theorem body_obligation (c : Dev nD) :
    BodyObligationLoose (dats (F := F) m 0 c) (defs₀ (F := F)) Variants.none () Set.univ := fun t => by
  rw [bigSep_W0, bigSep_W0]
  refine (sound_body m c t).trans (wp_mono _ _ _ fun _ => ?_)
  unfold bodyPost
  refine sep_mono .rfl (sep_mono .rfl (sep_mono .rfl (sep_mono .rfl ?_)))
  rw [live_out t]

end Cert.KernelIdeal.Body

end
-- ==== Proof.KernelIdeal.Run.lean ====
/-
  The run of the whole program and its frame: every weakly fair execution of @main terminates, nothing faults, the
  two argument arrays end as they were, and the result array ends at what the write-backs of the proof data leave —
  the partial product after the last point, written back once.
-/
import proofs.«118865_g9947144257871_rerun558fix_369_29_alg».proof.Proof.KernelIdeal.Obligation

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

set_option backward.isDefEq.respectTransparency.types false in
/-- At the compiled mesh, for any values, from any memory with zero counters: every weakly fair execution of @main
    terminates, every array of the pipeline ends at what the library computes from the proof data, and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to the end and its two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KernelIdeal.SlabProduct.lean ====
/-
  What the body computes at a point, entry by entry, over the extended reals: the matrix unit's product of a left
  block (contraction × rows) with a right block (columns × contraction) into a zero accumulator is, at entry
  `(r, c)`, the sum over the contraction index `k` of `left k r · right c k`; the first branch stores it, the
  other two add it to what the output block held.
-/
import proofs.«118865_g9947144257871_rerun558fix_369_29_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Product

open Cert.KernelIdeal Cert.KernelIdeal.Gen
open Idealize.ShloMosaic Idealize.ShloMosaic.ValueIdx

/-! ### The contraction of 3072 (slab) -/

theorem slab_lhs0 (i : S1024x16.Idx) (q : dot_S3072x1024_S16x3072_S1024x16_0_1_1_0_n_n.contr.Idx) :
    (dot_S3072x1024_S16x3072_S1024x16_0_1_1_0_n_n.lhsIdx i q 0).val = (q ⟨0, by decide⟩).val :=
  dot_S3072x1024_S16x3072_S1024x16_0_1_1_0_n_n.lhsIdx_val_of_single rfl i q
theorem slab_lhs1 (i : S1024x16.Idx) (q : dot_S3072x1024_S16x3072_S1024x16_0_1_1_0_n_n.contr.Idx) :
    (dot_S3072x1024_S16x3072_S1024x16_0_1_1_0_n_n.lhsIdx i q 1).val = (i 0).val := by
  unfold DotDims.lhsIdx
  rw [dif_neg (show ¬(1 : Fin S3072x1024.rank) ∈ dot_S3072x1024_S16x3072_S1024x16_0_1_1_0_n_n.lhsBatch by decide),
    dif_pos (show (1 : Fin S3072x1024.rank) ∈ dot_S3072x1024_S16x3072_S1024x16_0_1_1_0_n_n.lhsNonContracting by decide)]
  rfl
theorem slab_rhs0 (i : S1024x16.Idx) (q : dot_S3072x1024_S16x3072_S1024x16_0_1_1_0_n_n.contr.Idx) :
    (dot_S3072x1024_S16x3072_S1024x16_0_1_1_0_n_n.rhsIdx i q 0).val = (i 1).val := by
  unfold DotDims.rhsIdx
  rw [dif_neg (show ¬(0 : Fin S16x3072.rank) ∈ dot_S3072x1024_S16x3072_S1024x16_0_1_1_0_n_n.rhsBatch by decide),
    dif_pos (show (0 : Fin S16x3072.rank) ∈ dot_S3072x1024_S16x3072_S1024x16_0_1_1_0_n_n.rhsNonContracting by decide)]
  rfl
theorem slab_rhs1 (i : S1024x16.Idx) (q : dot_S3072x1024_S16x3072_S1024x16_0_1_1_0_n_n.contr.Idx) :
    (dot_S3072x1024_S16x3072_S1024x16_0_1_1_0_n_n.rhsIdx i q 1).val = (q ⟨0, by decide⟩).val :=
  dot_S3072x1024_S16x3072_S1024x16_0_1_1_0_n_n.rhsIdx_val_of_single rfl i q

/-- The matrix unit's product into a zero accumulator, at entry `i`: the left operand is contracted along its
    rows, the right along its columns. -/
theorem slab_apply (X0 : FVec Ideal S3072x1024 .f32) (X1 : FVec Ideal S16x3072 .f32) (i : S1024x16.Idx) :
    matmul (F := Ideal) dot_S3072x1024_S16x3072_S1024x16_0_1_1_0_n_n none X0 X1 (constant (F := Ideal) S1024x16 .f32 0x00000000#32) i
      = ∑ k : Fin 3072, X0 (ix2 k (i 0)) * X1 (ix2 (i 1) k) := by
  refine (Ideal.matmul_constant_zero_apply dot_S3072x1024_S16x3072_S1024x16_0_1_1_0_n_n none X0 X1 i).trans ?_
  rw [← Equiv.sum_comp (ValueIdx.contrEquiv1 dot_S3072x1024_S16x3072_S1024x16_0_1_1_0_n_n 3072 rfl rfl).symm]
  refine Finset.sum_congr rfl fun k _ => ?_
  have hk := ValueIdx.contrEquiv1_symm_val dot_S3072x1024_S16x3072_S1024x16_0_1_1_0_n_n 3072 rfl rfl k
  have el : dot_S3072x1024_S16x3072_S1024x16_0_1_1_0_n_n.lhsIdx i ((ValueIdx.contrEquiv1 dot_S3072x1024_S16x3072_S1024x16_0_1_1_0_n_n 3072 rfl rfl).symm k) = ix2 k (i 0) :=
    funext fun a => Fin.ext (by
      match a with
      | ⟨0, _⟩ => exact (slab_lhs0 _ _).trans hk
      | ⟨1, _⟩ => exact slab_lhs1 _ _)
  have er : dot_S3072x1024_S16x3072_S1024x16_0_1_1_0_n_n.rhsIdx i ((ValueIdx.contrEquiv1 dot_S3072x1024_S16x3072_S1024x16_0_1_1_0_n_n 3072 rfl rfl).symm k) = ix2 (i 1) k :=
    funext fun a => Fin.ext (by
      match a with
      | ⟨0, _⟩ => exact slab_rhs0 _ _
      | ⟨1, _⟩ => exact (slab_rhs1 _ _).trans hk)
  rw [el, er]
  rfl

/-! ### The contraction of 1696 (rest) -/

theorem rest_lhs0 (i : S1024x16.Idx) (q : dot_S1696x1024_S16x1696_S1024x16_0_1_1_0_n_n.contr.Idx) :
    (dot_S1696x1024_S16x1696_S1024x16_0_1_1_0_n_n.lhsIdx i q 0).val = (q ⟨0, by decide⟩).val :=
  dot_S1696x1024_S16x1696_S1024x16_0_1_1_0_n_n.lhsIdx_val_of_single rfl i q
theorem rest_lhs1 (i : S1024x16.Idx) (q : dot_S1696x1024_S16x1696_S1024x16_0_1_1_0_n_n.contr.Idx) :
    (dot_S1696x1024_S16x1696_S1024x16_0_1_1_0_n_n.lhsIdx i q 1).val = (i 0).val := by
  unfold DotDims.lhsIdx
  rw [dif_neg (show ¬(1 : Fin S1696x1024.rank) ∈ dot_S1696x1024_S16x1696_S1024x16_0_1_1_0_n_n.lhsBatch by decide),
    dif_pos (show (1 : Fin S1696x1024.rank) ∈ dot_S1696x1024_S16x1696_S1024x16_0_1_1_0_n_n.lhsNonContracting by decide)]
  rfl
theorem rest_rhs0 (i : S1024x16.Idx) (q : dot_S1696x1024_S16x1696_S1024x16_0_1_1_0_n_n.contr.Idx) :
    (dot_S1696x1024_S16x1696_S1024x16_0_1_1_0_n_n.rhsIdx i q 0).val = (i 1).val := by
  unfold DotDims.rhsIdx
  rw [dif_neg (show ¬(0 : Fin S16x1696.rank) ∈ dot_S1696x1024_S16x1696_S1024x16_0_1_1_0_n_n.rhsBatch by decide),
    dif_pos (show (0 : Fin S16x1696.rank) ∈ dot_S1696x1024_S16x1696_S1024x16_0_1_1_0_n_n.rhsNonContracting by decide)]
  rfl
theorem rest_rhs1 (i : S1024x16.Idx) (q : dot_S1696x1024_S16x1696_S1024x16_0_1_1_0_n_n.contr.Idx) :
    (dot_S1696x1024_S16x1696_S1024x16_0_1_1_0_n_n.rhsIdx i q 1).val = (q ⟨0, by decide⟩).val :=
  dot_S1696x1024_S16x1696_S1024x16_0_1_1_0_n_n.rhsIdx_val_of_single rfl i q

/-- The matrix unit's product into a zero accumulator, at entry `i`: the left operand is contracted along its
    rows, the right along its columns. -/
theorem rest_apply (X0 : FVec Ideal S1696x1024 .f32) (X1 : FVec Ideal S16x1696 .f32) (i : S1024x16.Idx) :
    matmul (F := Ideal) dot_S1696x1024_S16x1696_S1024x16_0_1_1_0_n_n none X0 X1 (constant (F := Ideal) S1024x16 .f32 0x00000000#32) i
      = ∑ k : Fin 1696, X0 (ix2 k (i 0)) * X1 (ix2 (i 1) k) := by
  refine (Ideal.matmul_constant_zero_apply dot_S1696x1024_S16x1696_S1024x16_0_1_1_0_n_n none X0 X1 i).trans ?_
  rw [← Equiv.sum_comp (ValueIdx.contrEquiv1 dot_S1696x1024_S16x1696_S1024x16_0_1_1_0_n_n 1696 rfl rfl).symm]
  refine Finset.sum_congr rfl fun k _ => ?_
  have hk := ValueIdx.contrEquiv1_symm_val dot_S1696x1024_S16x1696_S1024x16_0_1_1_0_n_n 1696 rfl rfl k
  have el : dot_S1696x1024_S16x1696_S1024x16_0_1_1_0_n_n.lhsIdx i ((ValueIdx.contrEquiv1 dot_S1696x1024_S16x1696_S1024x16_0_1_1_0_n_n 1696 rfl rfl).symm k) = ix2 k (i 0) :=
    funext fun a => Fin.ext (by
      match a with
      | ⟨0, _⟩ => exact (rest_lhs0 _ _).trans hk
      | ⟨1, _⟩ => exact rest_lhs1 _ _)
  have er : dot_S1696x1024_S16x1696_S1024x16_0_1_1_0_n_n.rhsIdx i ((ValueIdx.contrEquiv1 dot_S1696x1024_S16x1696_S1024x16_0_1_1_0_n_n 1696 rfl rfl).symm k) = ix2 (i 1) k :=
    funext fun a => Fin.ext (by
      match a with
      | ⟨0, _⟩ => exact rest_rhs0 _ _
      | ⟨1, _⟩ => exact (rest_rhs1 _ _).trans hk)
  rw [el, er]
  rfl

/-! ## The three branches' payloads -/

theorem first_apply (X0 : Vec Ideal S3072x1024 .f32) (X1 : Vec Ideal S16x3072 .f32) (i : S1024x16.Idx) :
    k0_pay1 (F := Ideal) X0 X1 i = ∑ k : Fin 3072, X0 (ix2 k (i 0)) * X1 (ix2 (i 1) k) := by
  unfold k0_pay1
  simp only [shapeCast_self]
  exact slab_apply X0 X1 i

theorem full_apply (xo : Vec Ideal S1024x16 .f32) (X0 : Vec Ideal S3072x1024 .f32) (X1 : Vec Ideal S16x3072 .f32)
    (i : S1024x16.Idx) :
    k0_pay2 (F := Ideal) xo X0 X1 i = xo i + ∑ k : Fin 3072, X0 (ix2 k (i 0)) * X1 (ix2 (i 1) k) := by
  unfold k0_pay2
  simp only [shapeCast_self]
  exact congrArg (xo i + ·) (slab_apply X0 X1 i)

theorem tail_apply (xo : Vec Ideal S1024x16 .f32) (X0 : Vec Ideal S1696x1024 .f32) (X1 : Vec Ideal S16x1696 .f32)
    (i : S1024x16.Idx) :
    k0_pay3 (F := Ideal) xo X0 X1 i = xo i + ∑ k : Fin 1696, X0 (ix2 k (i 0)) * X1 (ix2 (i 1) k) := by
  unfold k0_pay3
  simp only [shapeCast_self]
  exact congrArg (xo i + ·) (rest_apply X0 X1 i)

end Cert.KernelIdeal.Product

end
-- ==== Proof.KernelIdeal.Slabs.lean ====
/-
  The slabs, entry by entry. The region's left operand is `x` transposed (100000 × 1024) and its right operand `W`
  transposed (16 × 100000); slab `t` of the left operand is its rows 3072·t ‥, slab `t` of the right its columns
  3072·t ‥. So the left buffer's entry `(k, r)` at point `t`, when row 3072·t + k lies inside the array, is
  `x r (3072·t + k)`, and the right buffer's entry `(c, k)` is `W (3072·t + k) c`.
-/
import proofs.«118865_g9947144257871_rerun558fix_369_29_alg».proof.Proof.KernelIdeal.Accumulator
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Product

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Window)

variable (m : (ℓ : Loc nD τ sig) → Buf (Elt Ideal) ℓ)

/-! ## The operands as the region finds them -/

theorem V_lhs (c : Dev nD) : (V m c main_v0 : S100000x1024.Idx → EReal)
    = transpose S100000x1024 [1, 0] (m ((c : Thread nD τ).loc main_arg0)) transposes_S1024x100000_S100000x1024_1_0 := by
  dsimp only [Gen.V, Gen.hostOps0]; after_results

theorem V_rhs (c : Dev nD) : (V m c main_v1 : S16x100000.Idx → EReal)
    = transpose S16x100000 [1, 0] (m ((c : Thread nD τ).loc main_arg1)) transposes_S100000x16_S16x100000_1_0 := by
  dsimp only [Gen.V, Gen.hostOps0]; after_results

/-! ## Where slab `t` sits -/

theorem index_lhs : ∀ t : Fin cfg0.N, win0_0.index t 0 = t.val ∧ win0_0.index t 1 = 0 :=
  (by decide +kernel : ∀ t : Fin grid0.N, win0_0.index t 0 = t.val ∧ win0_0.index t 1 = 0)
theorem index_rhs : ∀ t : Fin cfg0.N, win0_1.index t 0 = 0 ∧ win0_1.index t 1 = t.val :=
  (by decide +kernel : ∀ t : Fin grid0.N, win0_1.index t 0 = 0 ∧ win0_1.index t 1 = t.val)
/-- How much of slab `t` lies inside the arrays: all 3072 before the last point, 1696 at it. -/
theorem inside_lhs : ∀ t : Fin cfg0.N,
    win0_0.xsize (grid0.coords t) 0 = min 3072 (100000 - 3072 * t.val) ∧ win0_0.xsize (grid0.coords t) 1 = 1024 :=
  (by decide +kernel : ∀ t : Fin grid0.N,
    win0_0.xsize (grid0.coords t) 0 = min 3072 (100000 - 3072 * t.val) ∧ win0_0.xsize (grid0.coords t) 1 = 1024)
theorem inside_rhs : ∀ t : Fin cfg0.N,
    win0_1.xsize (grid0.coords t) 0 = 16 ∧ win0_1.xsize (grid0.coords t) 1 = min 3072 (100000 - 3072 * t.val) :=
  (by decide +kernel : ∀ t : Fin grid0.N,
    win0_1.xsize (grid0.coords t) 0 = 16 ∧ win0_1.xsize (grid0.coords t) 1 = min 3072 (100000 - 3072 * t.val))

/-! ## The buffers' entries inside the arrays -/

theorem lhs_apply (c : Dev nD) (t : Fin cfg0.N) (k : Fin 3072) (r : Fin 1024) (h : 3072 * t.val + k.val < 100000) :
    lhs m c t (ix2 k r) = m ((c : Thread nD τ).loc main_arg0) (ix2 r ⟨3072 * t.val + k.val, h⟩) := by
  have hx := inside_lhs t
  have hi := index_lhs t
  have hm : win0_0.moved (grid0.coords t) (ix2 k r) = true := (win0_0.moved_iff _ _).mpr fun a => by
    match a with
    | ⟨0, _⟩ => show k.val < win0_0.xsize (grid0.coords t) 0; rw [hx.1]; have := k.isLt; omega
    | ⟨1, _⟩ => show r.val < win0_0.xsize (grid0.coords t) 1; rw [hx.2]; exact r.isLt
  unfold lhs Window.fill
  rw [dif_pos hm]
  unfold iblk
  rw [View.read_apply]
  refine (congrFun (V_lhs m c) _).trans ?_
  refine Eq.trans (congrArg _ (?_ : _ = (ix2 ⟨3072 * t.val + k.val, h⟩ r : S100000x1024.Idx)))
    (transpose_ix2_apply (m ((c : Thread nD τ).loc main_arg0)) transposes_S1024x100000_S100000x1024_1_0 ⟨3072 * t.val + k.val, h⟩ r)
  funext a
  apply Fin.ext
  match a with
  | ⟨0, _⟩ => show win0_0.index t 0 * 3072 + 1 * k.val = 3072 * t.val + k.val; rw [hi.1]; omega
  | ⟨1, _⟩ => show win0_0.index t 1 * 1024 + 1 * r.val = r.val; rw [hi.2]; omega

theorem rhs_apply (c : Dev nD) (t : Fin cfg0.N) (cc : Fin 16) (k : Fin 3072) (h : 3072 * t.val + k.val < 100000) :
    rhs m c t (ix2 cc k) = m ((c : Thread nD τ).loc main_arg1) (ix2 ⟨3072 * t.val + k.val, h⟩ cc) := by
  have hx := inside_rhs t
  have hi := index_rhs t
  have hm : win0_1.moved (grid0.coords t) (ix2 cc k) = true := (win0_1.moved_iff _ _).mpr fun a => by
    match a with
    | ⟨0, _⟩ => show cc.val < win0_1.xsize (grid0.coords t) 0; rw [hx.1]; exact cc.isLt
    | ⟨1, _⟩ => show k.val < win0_1.xsize (grid0.coords t) 1; rw [hx.2]; have := k.isLt; omega
  unfold rhs Window.fill
  rw [dif_pos hm]
  unfold iblk
  rw [View.read_apply]
  refine (congrFun (V_rhs m c) _).trans ?_
  refine Eq.trans (congrArg _ (?_ : _ = (ix2 cc ⟨3072 * t.val + k.val, h⟩ : S16x100000.Idx)))
    (transpose_ix2_apply (m ((c : Thread nD τ).loc main_arg1)) transposes_S100000x16_S16x100000_1_0 cc ⟨3072 * t.val + k.val, h⟩)
  funext a
  apply Fin.ext
  match a with
  | ⟨0, _⟩ => show win0_1.index t 0 * 16 + 1 * cc.val = cc.val; rw [hi.1]; omega
  | ⟨1, _⟩ => show win0_1.index t 1 * 3072 + 1 * k.val = 3072 * t.val + k.val; rw [hi.2]; omega

/-- The leading rows of a left block, entry by entry. -/
theorem headRows_apply (X : Vec Ideal S3072x1024 .f32) (k : Fin 1696) (r : Fin 1024) :
    headRows X (ix2 k r) = X (ix2 ⟨k.val, by have := k.isLt; omega⟩ r) := by
  show X _ = X _
  refine congrArg X (funext fun a => Fin.ext ?_)
  match a with
  | ⟨0, _⟩ => show 0 + 1 * k.val = k.val; omega
  | ⟨1, _⟩ => show 0 + 1 * r.val = r.val; omega
/-- The leading columns of a right block. -/
theorem headCols_apply (X : Vec Ideal S16x3072 .f32) (cc : Fin 16) (k : Fin 1696) :
    headCols X (ix2 cc k) = X (ix2 cc ⟨k.val, by have := k.isLt; omega⟩) := by
  show X _ = X _
  refine congrArg X (funext fun a => Fin.ext ?_)
  match a with
  | ⟨0, _⟩ => show 0 + 1 * cc.val = cc.val; omega
  | ⟨1, _⟩ => show 0 + 1 * k.val = k.val; omega

end Cert.KernelIdeal.Product

end
-- ==== Proof.Contraction.lean ====
/-
  The contraction, cut into consecutive runs.

  The product of `x` (1024 × 100000) and `W` (100000 × 16) at entry `(r, c)` is the sum over the contraction
  index `k` of `x r k · W k c`, in the extended reals. Summed over `k` in order, it is the value at 100000 of the
  partial sums over `k < n`; and the partial sum over `k < n + l` is the partial sum over `k < n` plus the sum of
  the next `l` terms. Both facts use only that addition of extended reals is commutative and associative: no
  finiteness enters.
-/
import Idealize.ShloMosaic.PureOps.Ideal
import Idealize.ShloMosaic.Lib.ValueIdx

noncomputable section

namespace Cert.Contraction

open Idealize.ShloMosaic Idealize.ShloMosaic.ValueIdx

variable (x : (⟨2, ![1024, 100000]⟩ : Shape).Idx → EReal) (W : (⟨2, ![100000, 16]⟩ : Shape).Idx → EReal)

/-- The `k`-th term of entry `(r, c)`, for `k` a natural number: zero past the contraction's extent. -/
def term (r : Fin 1024) (c : Fin 16) (k : ℕ) : EReal :=
  if h : k < 100000 then x (ix2 r ⟨k, h⟩) * W (ix2 ⟨k, h⟩ c) else 0

theorem term_of_lt (r : Fin 1024) (c : Fin 16) {k : ℕ} (h : k < 100000) :
    term x W r c k = x (ix2 r ⟨k, h⟩) * W (ix2 ⟨k, h⟩ c) := dif_pos h

/-- The sum of the terms below `n`. -/
def upTo (r : Fin 1024) (c : Fin 16) (n : ℕ) : EReal := ∑ k ∈ Finset.range n, term x W r c k

/-- A longer run is the shorter one plus the terms after it. -/
theorem upTo_add (r : Fin 1024) (c : Fin 16) (n l : ℕ) :
    upTo x W r c (n + l) = upTo x W r c n + ∑ k ∈ Finset.range l, term x W r c (n + k) :=
  Finset.sum_range_add _ _ _

/-- The first run. -/
theorem upTo_first (r : Fin 1024) (c : Fin 16) (l : ℕ) :
    upTo x W r c l = ∑ k ∈ Finset.range l, term x W r c (0 + k) := by
  unfold upTo; simp only [Nat.zero_add]

/-- The whole product. -/
def product : (⟨2, ![1024, 16]⟩ : Shape).Idx → EReal :=
  fun i => ∑ k : Fin 100000, x (ix2 (i 0) k) * W (ix2 k (i 1))

/-- It is the sum of all the terms. -/
theorem product_eq_upTo (i : (⟨2, ![1024, 16]⟩ : Shape).Idx) : product x W i = upTo x W (i 0) (i 1) 100000 := by
  unfold product upTo
  rw [← Fin.sum_univ_eq_sum_range]
  exact Finset.sum_congr rfl fun k _ => (term_of_lt x W (i 0) (i 1) k.isLt).symm

/-- A run of `l` consecutive terms from `n`, as a sum over `Fin l`. -/
theorem run_eq_sum_fin (r : Fin 1024) (c : Fin 16) (n l : ℕ) :
    ∑ k ∈ Finset.range l, term x W r c (n + k) = ∑ k : Fin l, term x W r c (n + k.val) :=
  (Fin.sum_univ_eq_sum_range (fun k => term x W r c (n + k)) l).symm

end Cert.Contraction

end
-- ==== Proof.KernelIdeal.Result.lean ====
/-
  The result array of the K-blocked product, at the ideal instance.

  By induction on the grid point, the output block after point `n` holds at entry `(r, c)` the sum of the first
  `min (3072·(n + 1)) 100000` terms `x r k · W k c`: the first slab contributes terms 0 ‥ 3071, each middle slab the
  next 3072, and the last slab the remaining 1696. The block is written back once, after the last point, and it is
  the whole result array: so the array ends holding the sum of all 100000 terms.
-/
import proofs.«118865_g9947144257871_rerun558fix_369_29_alg».proof.Proof.KernelIdeal.Run
import proofs.«118865_g9947144257871_rerun558fix_369_29_alg».proof.Proof.KernelIdeal.SlabProduct
import proofs.«118865_g9947144257871_rerun558fix_369_29_alg».proof.Proof.KernelIdeal.Slabs
import proofs.«118865_g9947144257871_rerun558fix_369_29_alg».proof.Proof.Contraction

set_option maxRecDepth 16384

noncomputable section

namespace Cert.KernelIdeal.Product

open Cert.KernelIdeal Cert.KernelIdeal.Gen Cert.KernelIdeal.Body Cert.Contraction
open Idealize.ShloMosaic Idealize.ShloMosaic.TcCoe Idealize.ShloMosaic.ValueIdx Idealize.SL.Sem
open Idealize.ShloMosaic.Pipeline (Dat Window)

variable (m : (ℓ : Loc nD τ sig) → Buf (Elt Ideal) ℓ) (ρ : Dev nD → PrngReg)

/-- The two arguments on core `c`, as matrices of extended reals. -/
abbrev xs (c : Dev nD) : S1024x100000.Idx → EReal := m ((c : Thread nD τ).loc main_arg0)
abbrev Ws (c : Dev nD) : S100000x16.Idx → EReal := m ((c : Thread nD τ).loc main_arg1)

/-! ## The payloads at explicit coordinates -/

theorem first_at (X0 : Vec Ideal S3072x1024 .f32) (X1 : Vec Ideal S16x3072 .f32) (r : Fin 1024) (cc : Fin 16) :
    k0_pay1 (F := Ideal) X0 X1 (ix2 r cc) = ∑ k : Fin 3072, X0 (ix2 k r) * X1 (ix2 cc k) :=
  first_apply X0 X1 (ix2 r cc)
theorem full_at (xo : Vec Ideal S1024x16 .f32) (X0 : Vec Ideal S3072x1024 .f32) (X1 : Vec Ideal S16x3072 .f32)
    (r : Fin 1024) (cc : Fin 16) :
    k0_pay2 (F := Ideal) xo X0 X1 (ix2 r cc) = xo (ix2 r cc) + ∑ k : Fin 3072, X0 (ix2 k r) * X1 (ix2 cc k) :=
  full_apply xo X0 X1 (ix2 r cc)
theorem tail_at (xo : Vec Ideal S1024x16 .f32) (X0 : Vec Ideal S1696x1024 .f32) (X1 : Vec Ideal S16x1696 .f32)
    (r : Fin 1024) (cc : Fin 16) :
    k0_pay3 (F := Ideal) xo X0 X1 (ix2 r cc) = xo (ix2 r cc) + ∑ k : Fin 1696, X0 (ix2 k r) * X1 (ix2 cc k) :=
  tail_apply xo X0 X1 (ix2 r cc)

/-! ## A slab's contribution is a run of consecutive terms -/

/-- Before the last point: the 3072 terms from 3072·t. -/
theorem slab_terms (c : Dev nD) (t : Fin cfg0.N) (ht : t.val < 32) (r : Fin 1024) (cc : Fin 16) :
    ∑ k : Fin 3072, lhs m c t (ix2 k r) * rhs m c t (ix2 cc k)
      = ∑ k ∈ Finset.range 3072, term (xs m c) (Ws m c) r cc (3072 * t.val + k) := by
  rw [run_eq_sum_fin]
  refine Finset.sum_congr rfl fun k _ => ?_
  have h : 3072 * t.val + k.val < 100000 := by have := k.isLt; omega
  rw [lhs_apply m c t k r h, rhs_apply m c t cc k h, term_of_lt _ _ r cc h]

/-- At the last point: the 1696 terms from 98304. -/
theorem rest_terms (c : Dev nD) (t : Fin cfg0.N) (ht : t.val = 32) (r : Fin 1024) (cc : Fin 16) :
    ∑ k : Fin 1696, headRows (lhs m c t) (ix2 k r) * headCols (rhs m c t) (ix2 cc k)
      = ∑ k ∈ Finset.range 1696, term (xs m c) (Ws m c) r cc (3072 * t.val + k) := by
  rw [run_eq_sum_fin]
  refine Finset.sum_congr rfl fun k _ => ?_
  have h : 3072 * t.val + k.val < 100000 := by have := k.isLt; omega
  rw [headRows_apply, headCols_apply,
    lhs_apply m c t ⟨k.val, by have := k.isLt; omega⟩ r h, rhs_apply m c t cc ⟨k.val, by have := k.isLt; omega⟩ h,
    term_of_lt _ _ r cc h]

/-! ## The accumulator is the partial sum -/

theorem acc_eq (c : Dev nD) : ∀ (n : ℕ) (h : n < cfg0.N) (r : Fin 1024) (cc : Fin 16),
    acc m c n h (ix2 r cc) = upTo (xs m c) (Ws m c) r cc (min (3072 * (n + 1)) 100000)
  | 0, h, r, cc => by
    rw [acc, first_at, slab_terms m c ⟨0, h⟩ (show (0 : ℕ) < 32 by decide) r cc,
      show min (3072 * (0 + 1)) 100000 = 3072 from by decide, upTo_first]
    rfl
  | n + 1, h, r, cc => by
    have hN : n + 1 < 33 := lt_of_lt_of_eq h N_0
    have ih := acc_eq c n (Nat.lt_of_succ_lt h) r cc
    rw [acc]
    by_cases h32 : n + 1 < 32
    · rw [if_pos h32, full_at, ih, slab_terms m c ⟨n + 1, h⟩ h32 r cc,
        show min (3072 * (n + 1)) 100000 = 3072 * (n + 1) from by omega,
        show min (3072 * (n + 1 + 1)) 100000 = 3072 * (n + 1) + 3072 from by omega, upTo_add]
    · have e : n + 1 = 32 := by omega
      rw [if_neg h32, tail_at, ih, rest_terms m c ⟨n + 1, h⟩ e r cc,
        show min (3072 * (n + 1)) 100000 = 3072 * (n + 1) from by omega,
        show min (3072 * (n + 1 + 1)) 100000 = 3072 * (n + 1) + 1696 from by omega, upTo_add]

/-! ## The result array -/

/-- The last grid point. -/
abbrev tLast : Fin cfg0.N := ⟨32, by decide⟩

/-- What the result array ends holding: the product. -/
abbrev result (c : Dev nD) : Buf (Elt Ideal) ((c : Thread nD τ).loc main_v2) := product (xs m c) (Ws m c)

/-- After the last point the output block holds the product, every entry. -/
theorem acc_last (c : Dev nD) : acc m c tLast.val tLast.isLt = result m c := by
  funext i
  obtain ⟨r, cc, rfl⟩ : ∃ (r : Fin 1024) (cc : Fin 16), i = ix2 r cc := ⟨i 0, i 1, eq_ix2 i⟩
  rw [acc_eq m c 32 tLast.isLt r cc]
  exact (product_eq_upTo (xs m c) (Ws m c) (ix2 r cc)).symm

/-- The one write-back, at the last point, writes it: block (0, 0) of the 1024 × 16 array is the array. -/
theorem flushed_eq (c : Dev nD) (t : Fin cfg0.N) (hf : (cfg0.win 2).flush t = true) :
    (dats m 0 c).flushed 2 t = ((cfg0.win 2).blk t).view.read (Elt Ideal) (result m c) := by
  have hN : cfg0.N = 33 := N_0
  have h32 : t.val = 32 := by have := (flush0_2 t).mp hf; have := t.isLt; omega
  obtain rfl : t = tLast := Fin.ext h32
  show (cfg0.win 2).cut (grid0.coords tLast) ((dats m 0 c).after 2 tLast) = _
  rw [after_out, acc_last]
  have hz' : (fun a => win0_2.index tLast a * main_v2.ty.shape.size a) = fun _ => 0 :=
    funext fun a => by fin_cases a <;> decide +kernel
  exact (Memref.read_access_unit_zero (Elt Ideal) main_v2 hz' (fun a => by rw [congrFun hz' a]; simp) (result m c)).symm

/-- So the result array ends holding the product. -/
theorem final (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1024 := (i 0).isLt
      have h1 : (i 1 : Nat) < 16 := (i 1).isLt
      match a with
      | ⟨0, _⟩ =>
        show win0_2.index tLast 0 * win0_2.size 0 ≤ (i 0 : Nat)
          ∧ (i 0 : Nat) < win0_2.index tLast 0 * win0_2.size 0 + win0_2.xsize (grid0.coords tLast) 0
        rw [show win0_2.index tLast 0 * win0_2.size 0 = 0 from by decide +kernel,
          show win0_2.xsize (grid0.coords tLast) 0 = 1024 from by decide +kernel]; omega
      | ⟨1, _⟩ =>
        show win0_2.index tLast 1 * win0_2.size 1 ≤ (i 1 : Nat)
          ∧ (i 1 : Nat) < win0_2.index tLast 1 * win0_2.size 1 + win0_2.xsize (grid0.coords tLast) 1
        rw [show win0_2.index tLast 1 * win0_2.size 1 = 0 from by decide +kernel,
          show win0_2.xsize (grid0.coords tLast) 1 = 16 from by decide +kernel]; omega⟩

/-- The run, read: the result array at the product, the two arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.Product

end
-- ==== Proof.Reference.lean ====
/-
  The reference's result, entry by entry: `jnp.matmul x W` is one `dot_general` contracting `x`'s columns with
  `W`'s rows, which over the extended reals is, at entry `(r, c)`, the sum over `k` of `x r k · W k c` — the product
  the kernel's accumulation ends at.
-/
import proofs.«118865_g9947144257871_rerun558fix_369_29_alg».proof.Proof.Gen.ReferenceIdeal.Run
import proofs.«118865_g9947144257871_rerun558fix_369_29_alg».proof.Proof.Gen.ReferenceIdeal.Read
import proofs.«118865_g9947144257871_rerun558fix_369_29_alg».proof.Proof.Contraction

noncomputable section

namespace Cert.ReferenceIdeal.Product

open Cert.ReferenceIdeal Cert.ReferenceIdeal.Gen Cert.ReferenceIdeal.Read Cert.Contraction
open Idealize.ShloMosaic Idealize.ShloMosaic.ValueIdx

theorem reference_eq (x0 : (⟨S1024x100000, .f32⟩ : BufTy).Contents (Elt Ideal))
    (x1 : (⟨S100000x16, .f32⟩ : BufTy).Contents (Elt Ideal)) :
    val_main_v0 (F := Ideal) x0 x1 = product x0 x1 := by
  funext i
  rw [val_main_v0_apply]
  unfold product
  refine Finset.sum_congr rfl fun k _ => ?_
  have el : lidx_main_v0 i k = ix2 (i 0) k := funext fun a => by match a with | ⟨0, _⟩ => rfl | ⟨1, _⟩ => rfl
  have er : ridx_main_v0 i k = ix2 k (i 1) := funext fun a => by match a with | ⟨0, _⟩ => rfl | ⟨1, _⟩ => rfl
  rw [el, er]
  rfl

end Cert.ReferenceIdeal.Product

end
-- ==== Proof.lean ====
/-
  `x @ W` for `x` : f32[1024, 100000] and `W` : f32[100000, 16], computed by a kernel that streams the contraction
  axis in 33 slabs of 3072 (the last slab holds 1696: 100000 = 32 · 3072 + 1696), against `jnp.matmul x W`.

  The kernel transposes both operands on the host, and at grid point `t` contracts rows 3072·t ‥ of `xᵀ` with columns
  3072·t ‥ of `Wᵀ` on the matrix unit: the first point stores the slab's product in the 1024 × 16 output block, each
  later point adds its slab's product to the block, and the block is written back once, after the last point. The last
  slab overhangs both arrays; its fetch fills only the leading 1696 rows (columns) of the staging buffers, and the body
  there contracts exactly those, so nothing beyond the arrays is ever read.

  Over the extended reals every float operation is the exact one, so after point `t` entry `(r, c)` of the block is
  the sum of the terms `x r k · W k c` for `k < min (3072·(t + 1)) 100000` (induction on the point; only associativity
  and commutativity of addition are used, so the inputs' finiteness is not needed), and the result array ends at the
  sum of all 100000 terms: the reference's `dot_general` at that entry.

  The frames (both programs terminate without a fault and leave their arguments unchanged) are proved once for the
  body's text at any float instance: the three branches run on any whole staging buffers, the branch conditions are
  decided over the grid, and the output block carries the partial product from point to point.
-/
import proofs.«118865_g9947144257871_rerun558fix_369_29_alg».proof.Defs
import proofs.«118865_g9947144257871_rerun558fix_369_29_alg».proof.Proof.Gen.Kernel
import proofs.«118865_g9947144257871_rerun558fix_369_29_alg».proof.Proof.Gen.KernelIdeal
import proofs.«118865_g9947144257871_rerun558fix_369_29_alg».proof.Proof.Gen.ReferenceIdeal
import proofs.«118865_g9947144257871_rerun558fix_369_29_alg».proof.Proof.Gen.ReferenceIdeal.Run
import proofs.«118865_g9947144257871_rerun558fix_369_29_alg».proof.Proof.Gen.ReferenceIdeal.Read
import proofs.«118865_g9947144257871_rerun558fix_369_29_alg».proof.Proof.Gen.Pre_finite_inputs
import proofs.«118865_g9947144257871_rerun558fix_369_29_alg».proof.Proof.Kernel.Run
import proofs.«118865_g9947144257871_rerun558fix_369_29_alg».proof.Proof.KernelIdeal.Result
import proofs.«118865_g9947144257871_rerun558fix_369_29_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs to the end and leaves `x` and `W` as they were. -/
theorem frame_kernel : Cert.frame_Kernel := fun m ρ _ => Cert.Kernel.Body.frame m ρ

/-- So does its reading over the extended reals. -/
theorem frame_ideal : Cert.frame_KernelIdeal := fun m ρ _ => Cert.KernelIdeal.Body.frame m ρ

/-- The reference is one host operation: it runs, and writes only its result. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on `x` and `W`, both programs end with the result array at the product of the two. -/
theorem algebraic : Cert.algebraic_KernelIdeal_ReferenceIdeal := by
  intro m ρ m' ρ' _ hagree
  refine ⟨fun c => Cert.KernelIdeal.Product.result m c, Cert.KernelIdeal.Product.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.Product.reference_eq _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
